-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S4x256x256 : Shape := ⟨3, ![4, 256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : IVec S2x800000 32) (main_arg2 : FVec F S4x256x256 .f32) (main_arg3 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4x256x256 .f32 := Host.absf main_arg2
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S2x800000 : Shape := ⟨2, ![2, 800000]⟩
abbrev S4x256x256 : Shape := ⟨3, ![4, 256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x50000x256 : Shape := ⟨3, ![1, 50000, 256]⟩
abbrev S4x50000x256 : Shape := ⟨3, ![4, 50000, 256]⟩
abbrev S4x2000x256 : Shape := ⟨3, ![4, 2000, 256]⟩
abbrev S2000x256 : Shape := ⟨2, ![2000, 256]⟩
abbrev S1x2000x256 : Shape := ⟨3, ![1, 2000, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 117
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S4x256x256, .f32⟩
  | .hbm, ⟨3, _⟩ => ⟨S256, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S850000, .i1⟩
  | .hbm, ⟨49, _⟩ => ⟨S_, .f32⟩
  | .hbm, ⟨50, _⟩ => ⟨S850000, .f32⟩
  | .hbm, ⟨51, _⟩ => ⟨S850000, .f32⟩
  | .hbm, ⟨52, _⟩ => ⟨S850000, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x256, .f32⟩
  | .hbm, ⟨79, _⟩ => ⟨S850000x256, .f32⟩
  | .hbm, ⟨80, _⟩ => ⟨S850000x256, .f32⟩
  | .hbm, ⟨81, _⟩ => ⟨S_, .f32⟩
  | .hbm, ⟨82, _⟩ => ⟨S50000x256, .f32⟩
  | .hbm, ⟨83, _⟩ => ⟨S850000x1, .i32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S850000x1, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x256, .f32⟩
  | .hbm, ⟨99, _⟩ => ⟨S850000x256, .f32⟩
  | .hbm, ⟨100, _⟩ => ⟨S850000x256, .f32⟩
  | .hbm, ⟨101, _⟩ => ⟨S_, .f32⟩
  | .hbm, ⟨102, _⟩ => ⟨S50000x256, .f32⟩
  | .hbm, ⟨103, _⟩ => ⟨S850000x1, .i32⟩
  | .hbm, ⟨104, _⟩ => ⟨S50000x256, .f32⟩
  | .hbm, ⟨105, _⟩ => ⟨S_, .f32⟩
  | .hbm, ⟨106, _⟩ => ⟨S50000x256, .f32⟩
  | .hbm, ⟨107, _⟩ => ⟨S50000x256, .f32⟩
  | .hbm, ⟨108, _⟩ => ⟨S50000x256, .f32⟩
  | .hbm, ⟨109, _⟩ => ⟨S1x50000x256, .f32⟩
  | .hbm, ⟨110, _⟩ => ⟨S1x50000x256, .f32⟩
  | .hbm, ⟨111, _⟩ => ⟨S1x50000x256, .f32⟩
  | .hbm, ⟨112, _⟩ => ⟨S1x50000x256, .f32⟩
  | .hbm, ⟨113, _⟩ => ⟨S4x50000x256, .f32⟩
  | .hbm, ⟨114, _⟩ => ⟨S4x50000x256, .bf16⟩
  | .hbm, ⟨115, _⟩ => ⟨S4x256x256, .bf16⟩
  | .hbm, ⟨116, _⟩ => ⟨S50000x256, .f32⟩
  | .local _ .vmem, ⟨0, _⟩ => ⟨S4x2000x256, .bf16⟩
  | .local _ .vmem, ⟨1, _⟩ => ⟨S4x2000x256, .bf16⟩
  | .local _ .vmem, ⟨2, _⟩ => ⟨S4x256x256, .bf16⟩
  | .local _ .vmem, ⟨3, _⟩ => ⟨S256, .f32⟩
  | .local _ .vmem, ⟨4, _⟩ => ⟨S2000x256, .f32⟩
  | .local _ .vmem, ⟨5, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_15 : Ref sig .tc := ⟨.hbm, 90, rfl⟩
abbrev main_v67 : Ref sig .tc := ⟨.hbm, 91, rfl⟩
abbrev main_v68 : Ref sig .tc := ⟨.hbm, 92, rfl⟩
abbrev main_c_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_18 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S50000x256_S1x50000x256_1_2 : S50000x256.BroadcastsInDim S1x50000x256 (![1, 2] : Fin 2 → Fin S1x50000x256.rank)
  concatenates_S1x50000x256_S1x50000x256_S1x50000x256_S1x50000x256_S4x50000x256_d0 : Shape.Concatenates [S1x50000x256, S1x50000x256, S1x50000x256, S1x50000x256] S4x50000x256 0
  bitsLt_bf16_f32 : FTy.bits .bf16 < FTy.bits .f32
  inb_S4x2000x256_S1x2000x256_0_0_0 : ∀ a, (![0, 0, 0] : Fin 3 → Nat) a + S1x2000x256.size a ≤ S4x2000x256.size a
  h_S1x2000x256 : 0 < S1x2000x256.numel
  shapeCasts_S1x2000x256_S2000x256 : S1x2000x256.ShapeCasts S2000x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x2000x256_S1x2000x256_1_0_0 : ∀ a, (![1, 0, 0] : Fin 3 → Nat) a + S1x2000x256.size a ≤ S4x2000x256.size a
  inb_S4x256x256_S1x256x256_1_0_0 : ∀ a, (![1, 0, 0] : Fin 3 → Nat) a + S1x256x256.size a ≤ S4x256x256.size a
  inb_S4x2000x256_S1x2000x256_2_0_0 : ∀ a, (![2, 0, 0] : Fin 3 → Nat) a + S1x2000x256.size a ≤ S4x2000x256.size a
  inb_S4x256x256_S1x256x256_2_0_0 : ∀ a, (![2, 0, 0] : Fin 3 → Nat) a + S1x256x256.size a ≤ S4x256x256.size a
  inb_S4x2000x256_S1x2000x256_3_0_0 : ∀ a, (![3, 0, 0] : Fin 3 → Nat) a + S1x2000x256.size a ≤ S4x2000x256.size a
  inb_S4x256x256_S1x256x256_3_0_0 : ∀ a, (![3, 0, 0] : Fin 3 → Nat) a + S1x256x256.size a ≤ S4x256x256.size a
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x256.size a ≤ S4x50000x256.size a
  hwx0_0 : ∀ i : grid0.Coords, EltTy.bits .bf16 = 32 ∨ (Rect.block (s := S4x50000x256) S4x2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S4x256x256.size a
  hwx0_1 : ∀ i : grid0.Coords, EltTy.bits .bf16 = 32 ∨ (Rect.block (s := S4x256x256) S4x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v87) S4x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v88) S4x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v89) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S4x256x256 : Shape := ⟨3, ![4, 256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256x256 : Shape := ⟨3, ![1, 256, 256]⟩
abbrev S256x256 : Shape := ⟨2, ![256, 256]⟩
abbrev S850000x256 : Shape := ⟨2, ![850000, 256]⟩
abbrev S1x256 : Shape := ⟨2, ![1, 256]⟩

abbrev nBuf : Space → Nat
  | .hbm => 127
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S4x256x256, .f32⟩
  | .hbm, ⟨3, _⟩ => ⟨S256, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S850000, .i1⟩
  | .hbm, ⟨49, _⟩ => ⟨S_, .f32⟩
  | .hbm, ⟨50, _⟩ => ⟨S850000, .f32⟩
  | .hbm, ⟨51, _⟩ => ⟨S850000, .f32⟩
  | .hbm, ⟨52, _⟩ => ⟨S850000, .f32⟩
  | .hbm, ⟨53, _⟩ => ⟨S1x256x256, .f32⟩
  | .hbm, ⟨54, _⟩ => ⟨S256x256, .f32⟩
  | .hbm, ⟨55, _⟩ => ⟨S50000x256, .f32⟩
  | .hbm, ⟨56, _⟩ => ⟨S850000x1, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x256, .f32⟩
  | .hbm, ⟨66, _⟩ => ⟨S850000x256, .f32⟩
  | .hbm, ⟨67, _⟩ => ⟨S850000x256, .f32⟩
  | .hbm, ⟨68, _⟩ => ⟨S_, .f32⟩
  | .hbm, ⟨69, _⟩ => ⟨S50000x256, .f32⟩
  | .hbm, ⟨70, _⟩ => ⟨S850000x1, .i32⟩
  | .hbm, ⟨71, _⟩ => ⟨S50000x256, .f32⟩
  | .hbm, ⟨72, _⟩ => ⟨S1x256x256, .f32⟩
  | .hbm, ⟨73, _⟩ => ⟨S256x256, .f32⟩
  | .hbm, ⟨74, _⟩ => ⟨S50000x256, .f32⟩
  | .hbm, ⟨75, _⟩ => ⟨S50000x256, .f32⟩
  | .hbm, ⟨76, _⟩ => ⟨S850000x1, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x256, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S1x256x256, .f32⟩
  | .hbm, ⟨97, _⟩ => ⟨S256x256, .f32⟩
  | .hbm, ⟨98, _⟩ => ⟨S50000x256, .f32⟩
  | .hbm, ⟨99, _⟩ => ⟨S50000x256, .f32⟩
  | .hbm, ⟨100, _⟩ => ⟨S850000x1, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x256, .f32⟩
  | .hbm, ⟨110, _⟩ => ⟨S850000x256, .f32⟩
  | .hbm, ⟨111, _⟩ => ⟨S850000x256, .f32⟩
  | .hbm, ⟨112, _⟩ => ⟨S_, .f32⟩
  | .hbm, ⟨113, _⟩ => ⟨S50000x256, .f32⟩
  | .hbm, ⟨114, _⟩ => ⟨S850000x1, .i32⟩
  | .hbm, ⟨115, _⟩ => ⟨S50000x256, .f32⟩
  | .hbm, ⟨116, _⟩ => ⟨S_, .f32⟩
  | .hbm, ⟨117, _⟩ => ⟨S50000x256, .f32⟩
  | .hbm, ⟨118, _⟩ => ⟨S50000x256, .f32⟩
  | .hbm, ⟨119, _⟩ => ⟨S50000x256, .f32⟩
  | .hbm, ⟨120, _⟩ => ⟨S1x256x256, .f32⟩
  | .hbm, ⟨121, _⟩ => ⟨S256x256, .f32⟩
  | .hbm, ⟨122, _⟩ => ⟨S50000x256, .f32⟩
  | .hbm, ⟨123, _⟩ => ⟨S50000x256, .f32⟩
  | .hbm, ⟨124, _⟩ => ⟨S1x256, .f32⟩
  | .hbm, ⟨125, _⟩ => ⟨S50000x256, .f32⟩
  | .hbm, ⟨126, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_15 : Ref sig .tc := ⟨.hbm, 101, rfl⟩
abbrev main_v78 : Ref sig .tc := ⟨.hbm, 102, rfl⟩
abbrev main_v79 : Ref sig .tc := ⟨.hbm, 103, rfl⟩
abbrev main_c_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x256x256_S1x256x256_0_0_0 : S4x256x256.Slices ![0, 0, 0] S1x256x256
  shapeCasts_S1x256x256_S256x256 : S1x256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S4x256x256_S1x256x256_1_0_0 : S4x256x256.Slices ![1, 0, 0] S1x256x256
  slices_S4x256x256_S1x256x256_2_0_0 : S4x256x256.Slices ![2, 0, 0] S1x256x256
  slices_S4x256x256_S1x256x256_3_0_0 : S4x256x256.Slices ![3, 0, 0] S1x256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelFrame.lean ====
/-
  The frame of `Kernel`: @main is a long line of host operations — the normalized-Laplacian weights of the edge list, three
  sparse products by scatter-add, the four Chebyshev terms stacked into one [4, 50000, 256] array — followed by ONE
  pallas_call on a grid of 25 row tiles. Every host operation writes a buffer of its own, so the four argument arrays
  reach the region as launched; the region's body loads the four [2000, 256] slabs of its tile, the four [256, 256]
  weight matrices and the bias, and stores one [2000, 256] tile that covers its output block. The body therefore reads
  only its input blocks and overwrites its whole output block: the run terminates, faults nowhere, and leaves the
  argument arrays as they were. The output array ends at the blocks the body wrote (`run_main`'s post), which the value
  proof reads.
-/
import proofs.«101831_j74045236183289_1_alg».proof.Proof.Gen.Kernel.Launch
import proofs.«101831_j74045236183289_1_alg».proof.Proof.Gen.Kernel.Skeleton
import proofs.«101831_j74045236183289_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes an argument array: each result has a buffer of its own. -/
theorem V_arg (c : Dev nD) (r : Ref sig .tc) (hr : r = main_arg0 ∨ r = main_arg1 ∨ r = main_arg2 ∨ r = main_arg3) :
    V m c r = m ((c : Thread nD τ).loc r) :=
  StableHlo.after_of_forall_not_mem (b := Proc.devRef .tc r) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    rcases hr with rfl | rfl | rfl | rfl
    all_goals (repeat' apply And.intro)
    all_goals exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr rfl)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window fetched at
    the first point only has not moved since), for any proof data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays after the run: the bias is the array of input window 2, the other three are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats 0 c).arrAt_in 2 rfl _).trans ((hA c 2).trans (V_main_arg3 m c)))⟩) h

/-! ## The body's accesses -/

abbrev rx0 : Rect S4x2000x256 := Rect.unit (s := S4x2000x256) ![0, 0, 0] S1x2000x256.size inb_S4x2000x256_S1x2000x256_0_0_0
abbrev rx1 : Rect S4x2000x256 := Rect.unit (s := S4x2000x256) ![1, 0, 0] S1x2000x256.size inb_S4x2000x256_S1x2000x256_1_0_0
abbrev rx2 : Rect S4x2000x256 := Rect.unit (s := S4x2000x256) ![2, 0, 0] S1x2000x256.size inb_S4x2000x256_S1x2000x256_2_0_0
abbrev rx3 : Rect S4x2000x256 := Rect.unit (s := S4x2000x256) ![3, 0, 0] S1x2000x256.size inb_S4x2000x256_S1x2000x256_3_0_0
abbrev rw0 : Rect S4x256x256 := Rect.unit (s := S4x256x256) ![0, 0, 0] S1x256x256.size inb_S4x256x256_S1x256x256_0_0_0
abbrev rw1 : Rect S4x256x256 := Rect.unit (s := S4x256x256) ![1, 0, 0] S1x256x256.size inb_S4x256x256_S1x256x256_1_0_0
abbrev rw2 : Rect S4x256x256 := Rect.unit (s := S4x256x256) ![2, 0, 0] S1x256x256.size inb_S4x256x256_S1x256x256_2_0_0
abbrev rw3 : Rect S4x256x256 := Rect.unit (s := S4x256x256) ![3, 0, 0] S1x256x256.size inb_S4x256x256_S1x256x256_3_0_0
abbrev rb : Rect S256 := Rect.unit (s := S256) ![0] S256.size inb_S256_S256_0
abbrev ro : Rect S2000x256 := Rect.unit (s := S2000x256) ![0, 0] S2000x256.size inb_S2000x256_S2000x256_0_0

/-! ## What the body leaves in the output window's buffer -/

/-- The output tile: the body's one store, over its whole buffer, of the payload of the four slabs of the input tile,
    the four weight matrices and the bias. -/
def outTile (x : Vec F S4x2000x256 .bf16) (w : Vec F S4x256x256 .bf16) (b : Vec F S256 .f32) : Vec F S2000x256 .f32 :=
  View.canon [⟨ro, k0_pay1 (View.ld x rx0) (View.ld w rw0) (View.ld x rx1) (View.ld w rw1) (View.ld x rx2) (View.ld w rw2) (View.ld x rx3) (View.ld w rw3) (View.ld b rb)⟩]

/-- The one store covers the buffer. -/
theorem cover_out (p0 : Vec F S2000x256 .f32) (y : S2000x256.Idx) :
    ∃ pc ∈ ([⟨ro, p0⟩] : List (View.Piece (Elt F) S2000x256 .f32)), y ∈ pc.1.set :=
  View.cover_of_tiled [⟨ro, p0⟩] S2000x256.size (by rfl) y

/-! ## The body's triple -/

set_option maxHeartbeats 1000000 in
/-- The body on whole staging buffers, the inputs' at contents `x`, `w`, `b` and the output's at anything, returns with the
    inputs' as they were and the output's at `outTile x w b`. -/
theorem sound_kernel (c : Dev nD) (E : Set ℕ) (i : grid0.Coords) (arg1 : Memref sig .tc .vmem S4x2000x256 .bf16) (harg1 : arg1.IsWhole) (arg2 : Memref sig .tc .vmem S4x256x256 .bf16) (harg2 : arg2.IsWhole) (arg3 : Memref sig .tc .vmem S256 .f32) (harg3 : arg3.IsWhole) (arg4 : Memref sig .tc .vmem S2000x256 .f32) (harg4 : arg4.IsWhole)
    (x : Vec F S4x2000x256 .bf16) (w : Vec F S4x256x256 .bf16) (b : Vec F S256 .f32) (K : PUnit → sProp 𝕄) :
    iprop(owns (c : Thread nD τ) arg1 fullShare x ∗ owns (c : Thread nD τ) arg2 fullShare w ∗ owns (c : Thread nD τ) arg3 fullShare b ∗ (∃ d, owns (c : Thread nD τ) arg4 fullShare d)
        ∗ (iprop(owns (c : Thread nD τ) arg1 fullShare x ∗ owns (c : Thread nD τ) arg2 fullShare w ∗ owns (c : Thread nD τ) arg3 fullShare b ∗ owns (c : Thread nD τ) arg4 fullShare (outTile x w b)) -∗ K ⟨⟩))
      ⊢ wp frame (wpE (defs₀ (F := F)) Variants.none c none) E (cc0__cheby_matmul_kernel i arg1 harg1 arg2 harg2 arg3 harg3 arg4 harg4) K := by
  simp only [cc0__cheby_matmul_kernel_eq_skeleton]; unfold cc0__cheby_matmul_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_out _)

/-! ## The pipeline's proof data -/

/-- After the body at point `t` each input's buffer holds its block and the output's the tile of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outTile (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and ends with every array of the pipeline at what the proof data
    says — the output array at the tiles the body wrote — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end without a fault and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KernelIdealFrame.lean ====
/-
  The frame of `KernelIdeal`: @main is a long line of host operations — the normalized-Laplacian weights of the edge list, three
  sparse products by scatter-add, the four Chebyshev terms stacked into one [4, 50000, 256] array — followed by ONE
  pallas_call on a grid of 25 row tiles. Every host operation writes a buffer of its own, so the four argument arrays
  reach the region as launched; the region's body loads the four [2000, 256] slabs of its tile, the four [256, 256]
  weight matrices and the bias, and stores one [2000, 256] tile that covers its output block. The body therefore reads
  only its input blocks and overwrites its whole output block: the run terminates, faults nowhere, and leaves the
  argument arrays as they were. The output array ends at the blocks the body wrote (`run_main`'s post), which the value
  proof reads.
-/
import proofs.«101831_j74045236183289_1_alg».proof.Proof.Gen.KernelIdeal.Launch
import proofs.«101831_j74045236183289_1_alg».proof.Proof.Gen.KernelIdeal.Skeleton
import proofs.«101831_j74045236183289_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes an argument array: each result has a buffer of its own. -/
theorem V_arg (c : Dev nD) (r : Ref sig .tc) (hr : r = main_arg0 ∨ r = main_arg1 ∨ r = main_arg2 ∨ r = main_arg3) :
    V m c r = m ((c : Thread nD τ).loc r) :=
  StableHlo.after_of_forall_not_mem (b := Proc.devRef .tc r) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    rcases hr with rfl | rfl | rfl | rfl
    all_goals (repeat' apply And.intro)
    all_goals exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr rfl)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window fetched at
    the first point only has not moved since), for any proof data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays after the run: the bias is the array of input window 2, the other three are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats 0 c).arrAt_in 2 rfl _).trans ((hA c 2).trans (V_main_arg3 m c)))⟩) h

/-! ## The body's accesses -/

abbrev rx0 : Rect S4x2000x256 := Rect.unit (s := S4x2000x256) ![0, 0, 0] S1x2000x256.size inb_S4x2000x256_S1x2000x256_0_0_0
abbrev rx1 : Rect S4x2000x256 := Rect.unit (s := S4x2000x256) ![1, 0, 0] S1x2000x256.size inb_S4x2000x256_S1x2000x256_1_0_0
abbrev rx2 : Rect S4x2000x256 := Rect.unit (s := S4x2000x256) ![2, 0, 0] S1x2000x256.size inb_S4x2000x256_S1x2000x256_2_0_0
abbrev rx3 : Rect S4x2000x256 := Rect.unit (s := S4x2000x256) ![3, 0, 0] S1x2000x256.size inb_S4x2000x256_S1x2000x256_3_0_0
abbrev rw0 : Rect S4x256x256 := Rect.unit (s := S4x256x256) ![0, 0, 0] S1x256x256.size inb_S4x256x256_S1x256x256_0_0_0
abbrev rw1 : Rect S4x256x256 := Rect.unit (s := S4x256x256) ![1, 0, 0] S1x256x256.size inb_S4x256x256_S1x256x256_1_0_0
abbrev rw2 : Rect S4x256x256 := Rect.unit (s := S4x256x256) ![2, 0, 0] S1x256x256.size inb_S4x256x256_S1x256x256_2_0_0
abbrev rw3 : Rect S4x256x256 := Rect.unit (s := S4x256x256) ![3, 0, 0] S1x256x256.size inb_S4x256x256_S1x256x256_3_0_0
abbrev rb : Rect S256 := Rect.unit (s := S256) ![0] S256.size inb_S256_S256_0
abbrev ro : Rect S2000x256 := Rect.unit (s := S2000x256) ![0, 0] S2000x256.size inb_S2000x256_S2000x256_0_0

/-! ## What the body leaves in the output window's buffer -/

/-- The output tile: the body's one store, over its whole buffer, of the payload of the four slabs of the input tile,
    the four weight matrices and the bias. -/
def outTile (x : Vec F S4x2000x256 .bf16) (w : Vec F S4x256x256 .bf16) (b : Vec F S256 .f32) : Vec F S2000x256 .f32 :=
  View.canon [⟨ro, k0_pay1 (View.ld x rx0) (View.ld w rw0) (View.ld x rx1) (View.ld w rw1) (View.ld x rx2) (View.ld w rw2) (View.ld x rx3) (View.ld w rw3) (View.ld b rb)⟩]

/-- The one store covers the buffer. -/
theorem cover_out (p0 : Vec F S2000x256 .f32) (y : S2000x256.Idx) :
    ∃ pc ∈ ([⟨ro, p0⟩] : List (View.Piece (Elt F) S2000x256 .f32)), y ∈ pc.1.set :=
  View.cover_of_tiled [⟨ro, p0⟩] S2000x256.size (by rfl) y

/-! ## The body's triple -/

set_option maxHeartbeats 1000000 in
/-- The body on whole staging buffers, the inputs' at contents `x`, `w`, `b` and the output's at anything, returns with the
    inputs' as they were and the output's at `outTile x w b`. -/
theorem sound_kernel (c : Dev nD) (E : Set ℕ) (i : grid0.Coords) (arg1 : Memref sig .tc .vmem S4x2000x256 .bf16) (harg1 : arg1.IsWhole) (arg2 : Memref sig .tc .vmem S4x256x256 .bf16) (harg2 : arg2.IsWhole) (arg3 : Memref sig .tc .vmem S256 .f32) (harg3 : arg3.IsWhole) (arg4 : Memref sig .tc .vmem S2000x256 .f32) (harg4 : arg4.IsWhole)
    (x : Vec F S4x2000x256 .bf16) (w : Vec F S4x256x256 .bf16) (b : Vec F S256 .f32) (K : PUnit → sProp 𝕄) :
    iprop(owns (c : Thread nD τ) arg1 fullShare x ∗ owns (c : Thread nD τ) arg2 fullShare w ∗ owns (c : Thread nD τ) arg3 fullShare b ∗ (∃ d, owns (c : Thread nD τ) arg4 fullShare d)
        ∗ (iprop(owns (c : Thread nD τ) arg1 fullShare x ∗ owns (c : Thread nD τ) arg2 fullShare w ∗ owns (c : Thread nD τ) arg3 fullShare b ∗ owns (c : Thread nD τ) arg4 fullShare (outTile x w b)) -∗ K ⟨⟩))
      ⊢ wp frame (wpE (defs₀ (F := F)) Variants.none c none) E (cc0__cheby_matmul_kernel i arg1 harg1 arg2 harg2 arg3 harg3 arg4 harg4) K := by
  simp only [cc0__cheby_matmul_kernel_eq_skeleton]; unfold cc0__cheby_matmul_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_out _)

/-! ## The pipeline's proof data -/

/-- After the body at point `t` each input's buffer holds its block and the output's the tile of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outTile (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and ends with every array of the pipeline at what the proof data
    says — the output array at the tiles the body wrote — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end without a fault and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.KernelTile.lean ====
/-
  One output tile at an index. At the ideal instance the body's payload at row `p`, column `q` of its [2000, 256] tile is
      0 + Σ_k x[0,p,k]·w[0,k,q] + Σ_k x[1,p,k]·w[1,k,q] + Σ_k x[2,p,k]·w[2,k,q] + Σ_k x[3,p,k]·w[3,k,q] + b[q]
  (sums over the 256 contracted columns, added left to right in the order the body adds them), where `x` is the
  [4, 2000, 256] input tile, `w` the [4, 256, 256] weights and `b` the bias: each matrix product into a zero accumulator
  is the plain sum of products, slab `j` of a rank-3 block with its unit axis dropped is the block at leading
  coordinate `j`, and the bias row broadcast over the rows is the bias at the column.
-/
import proofs.«101831_j74045236183289_1_alg».proof.Proof.KernelIdealFrame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.KernelIdeal.Fr
open Idealize.ShloMosaic Idealize.ShloMosaic.TcCoe Idealize.SL.Sem Idealize.ShloMosaic.ValueIdx
open scoped BigOperators

/-- The body's matrix product: [2000, 256] × [256, 256], contracting the left's columns with the right's rows. -/
abbrev D := dot_S2000x256_S256x256_S2000x256_1_0_0_1_n_n

theorem lhs0 (i : S2000x256.Idx) (q : D.contr.Idx) : (D.lhsIdx i q 0).val = (i 0).val := by
  unfold DotDims.lhsIdx
  rw [dif_neg (show ¬(0 : Fin S2000x256.rank) ∈ D.lhsBatch by decide), dif_pos (show (0 : Fin S2000x256.rank) ∈ D.lhsNonContracting by decide)]
  rfl
theorem lhs1 (i : S2000x256.Idx) (q : D.contr.Idx) : (D.lhsIdx i q 1).val = (q ⟨0, by decide⟩).val :=
  D.lhsIdx_val_of_single rfl i q
theorem rhs0 (i : S2000x256.Idx) (q : D.contr.Idx) : (D.rhsIdx i q 0).val = (q ⟨0, by decide⟩).val :=
  D.rhsIdx_val_of_single rfl i q
theorem rhs1 (i : S2000x256.Idx) (q : D.contr.Idx) : (D.rhsIdx i q 1).val = (i 1).val := by
  unfold DotDims.rhsIdx
  rw [dif_neg (show ¬(1 : Fin S256x256.rank) ∈ D.rhsBatch by decide), dif_pos (show (1 : Fin S256x256.rank) ∈ D.rhsNonContracting by decide)]
  rfl

/-- A matrix product into the zero accumulator, at row `p` and column `q`: the sum over the contracted index of the products. -/
theorem mm_apply (a : FVec Ideal S2000x256 .bf16) (b : FVec Ideal S256x256 .bf16) (p : Fin 2000) (q : Fin 256) :
    matmul D none a b (constant S2000x256 .f32 0x00000000#32) (ix2 p q) = ∑ k : Fin 256, a (ix2 p k) * b (ix2 k q) := by
  simp only [matmul]
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx (ix2 p q) ((ValueIdx.contrEquiv1 D 256 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 256 rfl rfl).symm k) = ix2 k q := funext fun a => Fin.ext (by
    match a with
    | ⟨0, _⟩ => exact (rhs0 _ _).trans hk
    | ⟨1, _⟩ => exact rhs1 _ _)
  rw [el, er]

/-- Slab `j` of the input tile, its unit axis dropped, at row `p` and column `k`. -/
theorem xslab (x : Vec Ideal S4x2000x256 .bf16) (j : Fin 4)
    (inb : ∀ a, (![j.val, 0, 0] : Fin 3 → Nat) a + S1x2000x256.size a ≤ S4x2000x256.size a) (p : Fin 2000) (k : Fin 256) :
    shapeCast S2000x256 (View.ld x (Rect.unit (s := S4x2000x256) ![j.val, 0, 0] S1x2000x256.size inb)) shapeCasts_S1x2000x256_S2000x256 (ix2 p k)
      = x (ix3 j p k) := by
  refine (shapeCast_dropUnit_apply ![2000, 256] (View.ld x (Rect.unit (s := S4x2000x256) ![j.val, 0, 0] S1x2000x256.size inb))
    shapeCasts_S1x2000x256_S2000x256 (ix2 p k)).trans ?_
  show x ((Rect.unit (s := S4x2000x256) ![j.val, 0, 0] S1x2000x256.size inb).emb _) = x _
  refine congrArg x (funext fun a => Fin.ext ?_)
  match a with
  | ⟨0, _⟩ => show j.val + 1 * 0 = j.val; omega
  | ⟨1, _⟩ => show 0 + 1 * p.val = p.val; omega
  | ⟨2, _⟩ => show 0 + 1 * k.val = k.val; omega

/-- Weight matrix `j`, its unit axis dropped, at row `k` and column `q`. -/
theorem wslab (w : Vec Ideal S4x256x256 .bf16) (j : Fin 4)
    (inb : ∀ a, (![j.val, 0, 0] : Fin 3 → Nat) a + S1x256x256.size a ≤ S4x256x256.size a) (k : Fin 256) (q : Fin 256) :
    shapeCast S256x256 (View.ld w (Rect.unit (s := S4x256x256) ![j.val, 0, 0] S1x256x256.size inb)) shapeCasts_S1x256x256_S256x256 (ix2 k q)
      = w (ix3 j k q) := by
  refine (shapeCast_dropUnit_apply ![256, 256] (View.ld w (Rect.unit (s := S4x256x256) ![j.val, 0, 0] S1x256x256.size inb))
    shapeCasts_S1x256x256_S256x256 (ix2 k q)).trans ?_
  show w ((Rect.unit (s := S4x256x256) ![j.val, 0, 0] S1x256x256.size inb).emb _) = w _
  refine congrArg w (funext fun a => Fin.ext ?_)
  match a with
  | ⟨0, _⟩ => show j.val + 1 * 0 = j.val; omega
  | ⟨1, _⟩ => show 0 + 1 * k.val = k.val; omega
  | ⟨2, _⟩ => show 0 + 1 * q.val = q.val; omega

/-- The product of slab `j` with weight matrix `j`, at row `p` and column `q`. -/
theorem mm_slab (x : Vec Ideal S4x2000x256 .bf16) (w : Vec Ideal S4x256x256 .bf16) (j : Fin 4)
    (inbx : ∀ a, (![j.val, 0, 0] : Fin 3 → Nat) a + S1x2000x256.size a ≤ S4x2000x256.size a)
    (inbw : ∀ a, (![j.val, 0, 0] : Fin 3 → Nat) a + S1x256x256.size a ≤ S4x256x256.size a) (p : Fin 2000) (q : Fin 256) :
    matmul (F := Ideal) (φ₁ := .bf16) (φ₂ := .bf16) D none
        (shapeCast S2000x256 (View.ld x (Rect.unit (s := S4x2000x256) ![j.val, 0, 0] S1x2000x256.size inbx)) shapeCasts_S1x2000x256_S2000x256)
        (shapeCast S256x256 (View.ld w (Rect.unit (s := S4x256x256) ![j.val, 0, 0] S1x256x256.size inbw)) shapeCasts_S1x256x256_S256x256)
        (constant S2000x256 .f32 0x00000000#32) (ix2 p q)
      = ∑ k : Fin 256, x (ix3 j p k) * w (ix3 j k q) := by
  rw [mm_apply]
  exact Finset.sum_congr rfl fun k _ => by rw [xslab x j inbx p k, wslab w j inbw k q]

/-- The bias, viewed as one row and broadcast over the tile's rows, at column `q`. -/
theorem bias_apply (b : Vec Ideal S256 .f32) (p : Fin 2000) (q : Fin 256) :
    broadcastTo S2000x256 (shapeCast S1x256 (View.ld b rb) shapeCasts_S256_S1x256) broadcasts_S1x256_S2000x256 (ix2 p q) = b (ix1 q) := by
  refine (broadcastTo_apply _ broadcasts_S1x256_S2000x256 (ix2 p q) (ix2 0 q) ?_).trans ?_
  · intro a
    match a with
    | ⟨0, _⟩ => rfl
    | ⟨1, _⟩ => rfl
  · refine (shapeCast_addUnit_apply ![256] (View.ld b rb) shapeCasts_S256_S1x256 (ix2 0 q)).trans ?_
    show b (rb.emb _) = b _
    refine congrArg b (funext fun a => Fin.ext ?_)
    match a with
    | ⟨0, _⟩ => show 0 + 1 * q.val = q.val; omega

theorem hz2 : (![0, 0] : Fin 2 → Nat) = fun _ => 0 := funext fun a => by fin_cases a <;> rfl

/-- The tile's element at row `p`, column `q`, from the tile's inputs. -/
def tileAt (x : Vec Ideal S4x2000x256 .bf16) (w : Vec Ideal S4x256x256 .bf16) (b : Vec Ideal S256 .f32) (p : Fin 2000) (q : Fin 256) : EReal :=
  Ideal.ofBits .f32 0x00000000#32
    + (∑ k : Fin 256, x (ix3 0 p k) * w (ix3 0 k q))
    + (∑ k : Fin 256, x (ix3 1 p k) * w (ix3 1 k q))
    + (∑ k : Fin 256, x (ix3 2 p k) * w (ix3 2 k q))
    + (∑ k : Fin 256, x (ix3 3 p k) * w (ix3 3 k q))
    + b (ix1 q)

/-- What the body stores, read at an index. -/
theorem outTile_apply (x : Vec Ideal S4x2000x256 .bf16) (w : Vec Ideal S4x256x256 .bf16) (b : Vec Ideal S256 .f32) (y : S2000x256.Idx) :
    outTile (F := Ideal) x w b y = tileAt x w b (y 0) (y 1) := by
  obtain ⟨p, q, rfl⟩ : ∃ (p : Fin 2000) (q : Fin 256), y = ix2 p q := ⟨y 0, y 1, eq_ix2 y⟩
  unfold outTile
  rw [View.canon_unit_zero hz2]
  unfold k0_pay1
  simp only [addf_apply]
  have e0 := mm_slab x w 0 inb_S4x2000x256_S1x2000x256_0_0_0 inb_S4x256x256_S1x256x256_0_0_0 p q
  have e1 := mm_slab x w 1 inb_S4x2000x256_S1x2000x256_1_0_0 inb_S4x256x256_S1x256x256_1_0_0 p q
  have e2 := mm_slab x w 2 inb_S4x2000x256_S1x2000x256_2_0_0 inb_S4x256x256_S1x256x256_2_0_0 p q
  have e3 := mm_slab x w 3 inb_S4x2000x256_S1x2000x256_3_0_0 inb_S4x256x256_S1x256x256_3_0_0 p q
  have eb := bias_apply b p q
  unfold tileAt
  exact congr (congrArg HAdd.hAdd (congr (congrArg HAdd.hAdd (congr (congrArg HAdd.hAdd (congr (congrArg HAdd.hAdd (congrArg (HAdd.hAdd _) e0)) e1)) e2)) e3)) eb

end Cert.KernelIdeal.Tile

end
-- ==== Proof.Spec.lean ====
/-
  The layer's result, index by index, on the extended reals: from a stack `X` of four [50000, 256] arrays, four
  [256, 256] weight matrices `W` and a bias `B`,
      result[r, c] = Σ_k X[0,r,k]·W[0,k,c] + Σ_k X[1,r,k]·W[1,k,c] + Σ_k X[2,r,k]·W[2,k,c] + Σ_k X[3,r,k]·W[3,k,c] + B[c],
  the four products added left to right and the bias last — the order both programs add them in.
-/
import Idealize.ShloMosaic.Lib.ValueIdx
import Idealize.ShloMosaic.PureOps.Ideal

noncomputable section

namespace Cert.Spec

open Idealize.ShloMosaic Idealize.ShloMosaic.ValueIdx
open scoped BigOperators

/-- Row `r` of array `j` of the stack against column `c` of weight matrix `j`. -/
def dotTerm (X : (⟨3, ![4, 50000, 256]⟩ : Shape).Idx → EReal) (W : (⟨3, ![4, 256, 256]⟩ : Shape).Idx → EReal)
    (j : Fin 4) (r : Fin 50000) (c : Fin 256) : EReal :=
  ∑ k : Fin 256, X (ix3 j r k) * W (ix3 j k c)

/-- The weighted sum of the four terms plus the bias. -/
def cheby (X : (⟨3, ![4, 50000, 256]⟩ : Shape).Idx → EReal) (W : (⟨3, ![4, 256, 256]⟩ : Shape).Idx → EReal)
    (B : (⟨1, ![256]⟩ : Shape).Idx → EReal) : (⟨2, ![50000, 256]⟩ : Shape).Idx → EReal := fun i =>
  dotTerm X W 0 (i 0) (i 1) + dotTerm X W 1 (i 0) (i 1) + dotTerm X W 2 (i 0) (i 1) + dotTerm X W 3 (i 0) (i 1) + B (ix1 (i 1))

end Cert.Spec

end
-- ==== Proof.KernelValue.lean ====
/-
  From tiles to the array. Grid point `t` stages rows 2000·t … 2000·t + 1999 of each of the four stacked arrays, all four
  weight matrices and the bias, and writes back rows 2000·t … 2000·t + 1999 of the result; so the tile it writes is the
  restriction to those rows of ONE function of the arrays the region finds — the layer's result `Spec.cheby` of the
  stack, the weights and the bias —, the 25 tiles cover the 50000 rows, and the result array ends at that function.
-/
import proofs.«101831_j74045236183289_1_alg».proof.Proof.KernelTile
import proofs.«101831_j74045236183289_1_alg».proof.Proof.Spec

set_option maxRecDepth 16384

noncomputable section

namespace Cert.KernelIdeal.Val

open Cert.KernelIdeal Cert.KernelIdeal.Gen Cert.KernelIdeal.Fr Cert.KernelIdeal.Tile Cert.Spec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The index maps over the grid: the stack's and the result's blocks move with the point along the rows; the weights'
    and the bias's stay. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

/-- The tile of the blocks point `t` stages, at an index `y` of the tile, is the layer's result of the whole arrays at the
    index the result's block places `y` at — for ANY arrays: the stack's block holds rows 2000·t …, all four slabs and all
    columns; the weights' and the bias's blocks are the whole arrays; the result's block holds rows 2000·t …. -/
theorem tile_eq (A0 : S4x50000x256.Idx → Elt Ideal .bf16) (A1 : S4x256x256.Idx → Elt Ideal .bf16) (A2 : S256.Idx → Elt Ideal .f32)
    (t : Fin cfg0.N) (y : S2000x256.Idx) :
    tileAt (((cfg0.win 0).blk t).view.read (Elt Ideal) A0) (((cfg0.win 1).blk t).view.read (Elt Ideal) A1)
        (((cfg0.win 2).blk t).view.read (Elt Ideal) A2) (y 0) (y 1)
      = cheby A0 A1 A2 (((cfg0.win 3).blk t).view.emb y) := by
  obtain ⟨a0, a1, a2, b0, b1, b2, c0, d0, d1⟩ := idx_facts t
  have e0 : ((((cfg0.win 3).blk t).view.emb y) 0).val = t.val * 2000 + (y 0).val := by
    show win0_3.index t (0 : Fin 2) * 2000 + 1 * (y 0).val = _; rw [d0]; omega
  have e1 : ((((cfg0.win 3).blk t).view.emb y) 1).val = (y 1).val := by
    show win0_3.index t (1 : Fin 2) * 256 + 1 * (y 1).val = _; rw [d1]; omega
  have hx : ∀ (j : Fin 4) (k : Fin 256),
      ((cfg0.win 0).blk t).view.read (Elt Ideal) A0 (ix3 j (y 0) k) = A0 (ix3 j ((((cfg0.win 3).blk t).view.emb y) 0) k) := fun j k => by
    rw [View.read_apply]
    refine congrArg A0 (funext fun a => Fin.ext ?_)
    match a with
    | ⟨0, _⟩ => show win0_0.index t (0 : Fin 3) * 4 + 1 * j.val = j.val; rw [a0]; omega
    | ⟨1, _⟩ => show win0_0.index t (1 : Fin 3) * 2000 + 1 * (y 0).val = ((((cfg0.win 3).blk t).view.emb y) 0).val; rw [a1, e0]; omega
    | ⟨2, _⟩ => show win0_0.index t (2 : Fin 3) * 256 + 1 * k.val = k.val; rw [a2]; omega
  have hw : ∀ (j : Fin 4) (k : Fin 256),
      ((cfg0.win 1).blk t).view.read (Elt Ideal) A1 (ix3 j k (y 1)) = A1 (ix3 j k ((((cfg0.win 3).blk t).view.emb y) 1)) := fun j k => by
    rw [View.read_apply]
    refine congrArg A1 (funext fun a => Fin.ext ?_)
    match a with
    | ⟨0, _⟩ => show win0_1.index t (0 : Fin 3) * 4 + 1 * j.val = j.val; rw [b0]; omega
    | ⟨1, _⟩ => show win0_1.index t (1 : Fin 3) * 256 + 1 * k.val = k.val; rw [b1]; omega
    | ⟨2, _⟩ => show win0_1.index t (2 : Fin 3) * 256 + 1 * (y 1).val = ((((cfg0.win 3).blk t).view.emb y) 1).val; rw [b2, e1]; omega
  have hb : ((cfg0.win 2).blk t).view.read (Elt Ideal) A2 (ix1 (y 1)) = A2 (ix1 ((((cfg0.win 3).blk t).view.emb y) 1)) := by
    rw [View.read_apply]
    refine congrArg A2 (funext fun a => Fin.ext ?_)
    match a with
    | ⟨0, _⟩ => show win0_2.index t (0 : Fin 1) * 256 + 1 * (y 1).val = ((((cfg0.win 3).blk t).view.emb y) 1).val; rw [c0, e1]; omega
  unfold tileAt cheby dotTerm
  rw [Ideal.ofBits_zero_f32, zero_add]
  simp only [hx, hw, hb]

/-- What point `t` writes back is block `t` of the layer's result of the arrays the region finds. -/
theorem flushed_eq (c : Dev nD) (t : Fin cfg0.N) :
    (dats m 0 c).flushed 3 t
      = ((cfg0.win 3).blk t).view.read (Elt Ideal) (cheby (V m c main_v87) (V m c main_v88) (V m c main_arg3)) := by
  show (cfg0.win 3).cut (grid0.coords t) ((dats m 0 c).after 3 t) = _
  rw [after0_3]
  funext (y : S2000x256.Idx)
  refine (outTile_apply (iblk m c 0 t) (iblk m c 1 t) (iblk m c 2 t) y).trans ?_
  exact tile_eq (V m c main_v87) (V m c main_v88) (V m c main_arg3) t y

/-- An index of the result array is in point `t`'s block iff each coordinate is in the block's range. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v89).slice (win0_3.rect t)).set ↔ _
  rw [View.set_slice_whole, Rect.mem_set_unit]
  exact Iff.rfl

/-- Row `r` is in the block of point `r / 2000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : (i 0).val / 2000 < cfg0.N := by show _ < grid0.N; rw [N_0]; omega
  obtain ⟨-, -, -, -, -, -, -, d0, d1⟩ := idx_facts ⟨(i 0).val / 2000, hN⟩
  refine ⟨⟨(i 0).val / 2000, hN⟩, flush0_3 _, ?_⟩
  rw [mem_blk]
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    rw [d0]; show (i 0).val / 2000 * 2000 ≤ (i 0).val ∧ (i 0).val < (i 0).val / 2000 * 2000 + 2000; omega
  | ⟨1, _⟩ =>
    show win0_3.index ⟨(i 0).val / 2000, hN⟩ (1 : Fin 2) * 256 ≤ (i 1).val ∧ (i 1).val < win0_3.index ⟨(i 0).val / 2000, hN⟩ (1 : Fin 2) * 256 + 256
    rw [d1]; omega

/-- The result array after the run. -/
theorem final (c : Dev nD) : (dats m 0 c).arrAt 3 cfg0.N = cheby (V m c main_v87) (V m c main_v88) (V m c main_arg3) :=
  (dats m 0 c).arrAt_eq_of_cover 3 _ (fun t _ => flushed_eq m c t) cover

/-- The run, read: the result array at the layer's result of what the region finds, the arguments unchanged. -/
theorem run : θ_run defs (onTc (τ := τ) (main (F := Ideal))) ⟨m, fun _ => 0, ρ⟩ fun r => ∀ c : Dev nD,
      r.2.mem ((c.tc : Thread nD τ).loc main_v89) = cheby (V m c main_v87) (V m c main_v88) (V m c main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩)
    (run_main m ρ)

end Cert.KernelIdeal.Val

end
-- ==== Proof.Sparse.lean ====
/-
  The sparse stage both programs run on the host, as functions of the edge list `e` (an int32 [2, 800000] array) and of
  a node-feature array, stage by stage as StableHLO states them:
    * `rowIdx e`, `colIdx e`: the two rows of `e`, each followed by the self-loop indices 0 … 49999 (850000 entries);
    * `degInvSqrt r`: the degree of every node (a scatter-add of ones along `r`), then `1/sqrt(max(deg, 1e-30))` where
      the degree is positive and `0` elsewhere;
    * `lapVals r c`: the Laplacian's edge values `-d[r]·d[c]`, plus one on the self loops (where `r = c`);
    * `spmm l r c v`: the sparse product — gather the rows `v[c]`, scale each by its edge value, scatter-add along `r`;
    * `cheb l r c a b = 2·spmm(a) − b`: one step of the Chebyshev recurrence;
    * `stack4 a0 a1 a2 a3`: four [50000, 256] arrays laid along a new leading axis.
  Negative indices wrap by the array's extent before every gather (`wrapIdx`), as jnp indexing does. Nothing is
  computed here: the two programs' host lines are read back as these very terms, so that the stage is compared as text.
-/
import proofs.«101831_j74045236183289_1_alg».proof.Proof.Gen.KernelIdeal
import Idealize.ShloMosaic.Lib.StableHlo.Run

noncomputable section

namespace Cert.Sparse

open Cert.KernelIdeal Cert.KernelIdeal.Gen
open Idealize.ShloMosaic Idealize.ShloMosaic.TcCoe Idealize.SL.Sem Idealize.ShloMosaic.StableHlo

variable {F : FTy → Type} [FloatOps F]

/-- An int32 array and a float32 array of a shape, as a buffer of that type holds them. -/
abbrev IArr (F : FTy → Type) (s : Shape) := (⟨s, .i32⟩ : BufTy).Contents (Elt F)
abbrev FArr (F : FTy → Type) (s : Shape) := (⟨s, .f32⟩ : BufTy).Contents (Elt F)

/-- Two runs of operations, one after the other, leave what the second leaves of what the first left. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 800000 edge endpoints followed by the 50000 self-loop indices. -/
def cat2 (a : IArr F S800000) (b : IArr F S50000) : IArr F S850000 :=
  concatenate S850000 0 [⟨S800000, a⟩, ⟨S50000, b⟩] concatenates_S800000_S50000_S850000_d0

def rowIdx (e : IArr F S2x800000) : IArr F S850000 :=
  cat2 (shapeCast S800000 (extractStridedSlice S1x800000 ![0, 0] e slices_S2x800000_S1x800000_0_0) shapeCasts_S1x800000_S800000)
    (iotaInDim S50000 32 0)

def colIdx (e : IArr F S2x800000) : IArr F S850000 :=
  cat2 (shapeCast S800000 (extractStridedSlice S1x800000 ![1, 0] e slices_S2x800000_S1x800000_1_0) shapeCasts_S1x800000_S800000)
    (iotaInDim S50000 32 0)

/-- A negative index wraps by the extent 50000. -/
def wrapIdx (ix : IArr F S850000) : IArr F S850000 :=
  select (cmpi .slt ix (broadcastInDim S850000 ![] bcast_S_S850000 (constantI S_ 32 0#32)))
    (addi ix (broadcastInDim S850000 ![] bcast_S_S850000 (constantI S_ 32 50000#32))) ix

def degree (r : IArr F S850000) : FArr F S50000 :=
  Host.scatterAdd scatter_S50000_S850000x1_S850000_n_0_0_1
    (broadcastInDim S50000 ![] bcast_S_S50000 (constant S_ .f32 0x00000000#32))
    (broadcastInDim S850000x1 ![0] bcast_S850000_S850000x1_0 r)
    (broadcastInDim S850000 ![] bcast_S_S850000 (constant S_ .f32 0x3F800000#32))

def degInvSqrt (r : IArr F S850000) : FArr F S50000 :=
  select (cmpf .ogt (degree r) (broadcastInDim S50000 ![] bcast_S_S50000 (constant S_ .f32 0x00000000#32)))
    (Host.rsqrt (maximumf (degree r) (broadcastInDim S50000 ![] bcast_S_S50000 (constant S_ .f32 0x0DA24260#32))))
    (broadcastInDim S50000 ![] bcast_S_S50000 (constant S_ .f32 0x00000000#32))

def gatherNode (d : FArr F S50000) (ix : IArr F S850000) : FArr F S850000 :=
  Host.gather gather_S50000_S850000x1_S850000_n_0_n_n_0_1_1 d (broadcastInDim S850000x1 ![0] bcast_S850000_S850000x1_0 (wrapIdx ix))

def edgeProd (r c : IArr F S850000) : FArr F S850000 :=
  mulf (Host.negf (gatherNode (degInvSqrt r) r)) (gatherNode (degInvSqrt r) c)

def lapVals (r c : IArr F S850000) : FArr F S850000 :=
  select (cmpi .eq r c) (addf (edgeProd r c) (broadcastInDim S850000 ![] bcast_S_S850000 (constant S_ .f32 0x3F800000#32))) (edgeProd r c)

def spmm (l : FArr F S850000) (r c : IArr F S850000) (v : FArr F S50000x256) : FArr F S50000x256 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 r)
    (mulf (broadcastInDim S850000x256 ![0, 1] bcast_S850000x1_S850000x256_0_1 (broadcastInDim S850000x1 ![0] bcast_S850000_S850000x1_0 l))
      (Host.gather gather_S50000x256_S850000x1_S850000x256_1_0_n_n_0_1_1256 v
        (broadcastInDim S850000x1 ![0] bcast_S850000_S850000x1_0 (wrapIdx c))))

def cheb (l : FArr F S850000) (r c : IArr F S850000) (a b : FArr F S50000x256) : FArr F S50000x256 :=
  subf (mulf (broadcastInDim S50000x256 ![] bcast_S_S50000x256 (constant S_ .f32 0x40000000#32)) (spmm l r c a)) b

/-- The three Chebyshev terms after the first (which is the feature array itself). -/
def T1 (l : FArr F S850000) (r c : IArr F S850000) (x : FArr F S50000x256) : FArr F S50000x256 := spmm l r c x
def T2 (l : FArr F S850000) (r c : IArr F S850000) (x : FArr F S50000x256) : FArr F S50000x256 := cheb l r c (T1 l r c x) x
def T3 (l : FArr F S850000) (r c : IArr F S850000) (x : FArr F S50000x256) : FArr F S50000x256 := cheb l r c (T2 l r c x) (T1 l r c x)

/-- A [50000, 256] array as a [1, 50000, 256] one. -/
def lift3 (a : FArr F S50000x256) : FArr F S1x50000x256 :=
  broadcastInDim S1x50000x256 ![1, 2] bcast_S50000x256_S1x50000x256_1_2 a

/-- Four [1, 50000, 256] arrays along the leading axis. -/
def stack4 (a0 a1 a2 a3 : FArr F S1x50000x256) : FArr F S4x50000x256 :=
  concatenate S4x50000x256 0 [⟨S1x50000x256, a0⟩, ⟨S1x50000x256, a1⟩, ⟨S1x50000x256, a2⟩, ⟨S1x50000x256, a3⟩]
    concatenates_S1x50000x256_S1x50000x256_S1x50000x256_S1x50000x256_S4x50000x256_d0

/-- The four Chebyshev terms of `x` along the edge list `e`, stacked. -/
def chebStack (l : FArr F S850000) (r c : IArr F S850000) (x : FArr F S50000x256) : FArr F S4x50000x256 :=
  stack4 (lift3 x) (lift3 (T1 l r c x)) (lift3 (T2 l r c x)) (lift3 (T3 l r c x))

end Cert.Sparse

end
-- ==== Proof.KernelHost.lean ====
/-
  The kernel program's host line, read back. Its first four stretches compute, from the edge list alone, the two index
  arrays and the Laplacian's edge values; its last stretch runs the Chebyshev recurrence on the feature array, stacks the
  four terms and narrows the stack and the weights to bf16. Every operation writes a buffer of its own, so what a buffer
  holds at the region's entry is the composed term of the operations above it — the terms of the shared sparse stage.
-/
import proofs.«101831_j74045236183289_1_alg».proof.Proof.Sparse
import proofs.«101831_j74045236183289_1_alg».proof.Proof.Gen.KernelIdeal.Launch

set_option maxRecDepth 16384

noncomputable section

namespace Cert.KernelIdeal.Host

open Cert.KernelIdeal Cert.KernelIdeal.Gen Cert.Sparse
open Idealize.ShloMosaic Idealize.ShloMosaic.TcCoe Idealize.SL.Sem Idealize.ShloMosaic.StableHlo

variable {F : FTy → Type} [FloatOps F]

/-- The first four stretches, as one list. -/
abbrev pre : List (HloOp τ sig (Elt F)) := hostOps0 ++ (hostOps0_1 ++ (hostOps0_2 ++ hostOps0_3))

set_option maxHeartbeats 4000000 in
theorem pre_row (V0 : Valuation τ sig (Elt F)) :
    after (pre (F := F)) V0 (Proc.devRef .tc main_v3) = rowIdx (V0 (Proc.devRef .tc main_arg1)) := by
  simp only [pre, hostOps0, hostOps0_1, hostOps0_2, hostOps0_3, List.cons_append, List.nil_append]
  after_results_simp
  rfl

set_option maxHeartbeats 4000000 in
theorem pre_col (V0 : Valuation τ sig (Elt F)) :
    after (pre (F := F)) V0 (Proc.devRef .tc main_v6) = colIdx (V0 (Proc.devRef .tc main_arg1)) := by
  simp only [pre, hostOps0, hostOps0_1, hostOps0_2, hostOps0_3, List.cons_append, List.nil_append]
  after_results_simp
  rfl

set_option maxHeartbeats 16000000 in
theorem pre_lap (V0 : Valuation τ sig (Elt F)) :
    after (pre (F := F)) V0 (Proc.devRef .tc main_v36)
      = lapVals (rowIdx (V0 (Proc.devRef .tc main_arg1))) (colIdx (V0 (Proc.devRef .tc main_arg1))) := by
  simp only [pre, hostOps0, hostOps0_1, hostOps0_2, hostOps0_3, List.cons_append, List.nil_append]
  after_results_simp
  rfl

/-- The arguments pass through the first four stretches untouched. -/
theorem pre_arg (V0 : Valuation τ sig (Elt F)) (r : Ref sig .tc) (hr : r = main_arg0 ∨ r = main_arg2 ∨ r = main_arg3) :
    after (pre (F := F)) V0 (Proc.devRef .tc r) = V0 (Proc.devRef .tc r) :=
  StableHlo.after_of_forall_not_mem (b := Proc.devRef .tc r) _ _ (List.forall_iff_forall_mem.mp (by
    simp only [pre, hostOps0, hostOps0_1, hostOps0_2, hostOps0_3, List.cons_append, List.nil_append, List.Forall,
      StableHlo.nullary_writes, StableHlo.unary_writes, StableHlo.binary_writes, StableHlo.ternary_writes, StableHlo.reshape_writes, Finset.mem_singleton]
    rcases hr with rfl | rfl | rfl
    all_goals (repeat' apply And.intro)
    all_goals exact StableHlo.devRef_ne_of_ne (by decide)))

/-! ## The last stretch: the recurrence, the stack, the narrowing -/

/-- The four-operand concatenation's result: its operands' contents, stacked. -/
theorem stack_result (W : Valuation τ sig (Elt F)) :
    (StableHlo.nary ![main_v82, main_v83, main_v84, main_v85] main_v86 (fun u => concatenate S4x50000x256 0 [⟨S1x50000x256, u 0⟩, ⟨S1x50000x256, u 1⟩, ⟨S1x50000x256, u 2⟩, ⟨S1x50000x256, u 3⟩] concatenates_S1x50000x256_S1x50000x256_S1x50000x256_S1x50000x256_S4x50000x256_d0) : HloOp τ sig (Elt F)).result W (no_index (Proc.devRef .tc main_v86))
      = stack4 (W (Proc.devRef .tc main_v82)) (W (Proc.devRef .tc main_v83)) (W (Proc.devRef .tc main_v84)) (W (Proc.devRef .tc main_v85)) := by
  rw [StableHlo.nary4_result]; rfl

set_option maxHeartbeats 16000000 in
/-- From any contents `W` of the buffers above it, the last stretch leaves in the stack's buffer the four Chebyshev
    terms of `W`'s feature array along `W`'s index arrays and edge values, narrowed to bf16. -/
theorem tail_stack (W : Valuation τ sig (Elt F)) :
    after (hostOps0_4 (F := F)) W (Proc.devRef .tc main_v87)
      = truncf .bf16 (chebStack (W (Proc.devRef .tc main_v36)) (W (Proc.devRef .tc main_v3)) (W (Proc.devRef .tc main_v6)) (W (Proc.devRef .tc main_arg0))) bitsLt_bf16_f32 := by
  simp only [hostOps0_4]
  simp (disch := decide) only [after_cons, after_nil, nullary_result', unary_result', binary_result', ternary_result', stack_result,
    nullary_result_ne', unary_result_ne', binary_result_ne', ternary_result_ne', nary_result_ne']
  rfl

set_option maxHeartbeats 4000000 in
/-- and in the weights' buffer the weight array, narrowed to bf16. -/
theorem tail_weight (W : Valuation τ sig (Elt F)) :
    after (hostOps0_4 (F := F)) W (Proc.devRef .tc main_v88) = truncf .bf16 (W (Proc.devRef .tc main_arg2)) bitsLt_bf16_f32 := by
  simp only [hostOps0_4]
  simp (disch := decide) only [after_cons, after_nil, nullary_result', unary_result', binary_result', ternary_result', stack_result,
    nullary_result_ne', unary_result_ne', binary_result_ne', ternary_result_ne', nary_result_ne']

/-- The five stretches are the first four, then the last. -/
theorem flat_eq : List.flatten [hostOps0 (F := F), hostOps0_1, hostOps0_2, hostOps0_3, hostOps0_4] = pre ++ hostOps0_4 := by
  simp only [List.flatten_cons, List.flatten_nil, List.append_nil, List.append_assoc, pre]

end Cert.KernelIdeal.Host

end
-- ==== Proof.KernelStack.lean ====
/-
  What the region finds in its stack and weights windows' arrays, in closed form: the four Chebyshev terms of the
  feature array along the edge list, stacked and narrowed to bf16; the weights narrowed to bf16.
-/
import proofs.«101831_j74045236183289_1_alg».proof.Proof.KernelIdealFrame
import proofs.«101831_j74045236183289_1_alg».proof.Proof.KernelHost

set_option maxRecDepth 16384

noncomputable section

namespace Cert.KernelIdeal.Host

open Cert.KernelIdeal Cert.KernelIdeal.Gen Cert.KernelIdeal.Fr Cert.Sparse
open Idealize.ShloMosaic Idealize.ShloMosaic.TcCoe Idealize.SL.Sem Idealize.ShloMosaic.StableHlo

variable {F : FTy → Type} [FloatOps F]
variable (m : (ℓ : Loc nD τ sig) → Buf (Elt F) ℓ)

theorem V_stack (c : Dev nD) :
    V m c main_v87
      = truncf .bf16 (chebStack
          (lapVals (rowIdx (m ((c : Thread nD τ).loc main_arg1))) (colIdx (m ((c : Thread nD τ).loc main_arg1))))
          (rowIdx (m ((c : Thread nD τ).loc main_arg1))) (colIdx (m ((c : Thread nD τ).loc main_arg1)))
          (m ((c : Thread nD τ).loc main_arg0))) bitsLt_bf16_f32 := by
  show after (List.flatten [hostOps0, hostOps0_1, hostOps0_2, hostOps0_3, hostOps0_4]) (fun b => m (c, b)) (Proc.devRef .tc main_v87) = _
  rw [flat_eq, Cert.Sparse.after_append, tail_stack, pre_lap, pre_row, pre_col, pre_arg _ main_arg0 (.inl rfl)]

theorem V_weight (c : Dev nD) :
    V m c main_v88 = truncf .bf16 (m ((c : Thread nD τ).loc main_arg2)) bitsLt_bf16_f32 := by
  show after (List.flatten [hostOps0, hostOps0_1, hostOps0_2, hostOps0_3, hostOps0_4]) (fun b => m (c, b)) (Proc.devRef .tc main_v88) = _
  rw [flat_eq, Cert.Sparse.after_append, tail_weight, pre_arg _ main_arg2 (.inr (.inl rfl))]

end Cert.KernelIdeal.Host

end
-- ==== Proof.RefRun.lean ====
/-
  The reference program's run, read back. The reference is host operations only: the same sparse stage as the kernel
  program's (the two index arrays and the Laplacian's edge values from the edge list, then the Chebyshev recurrence by
  three sparse products), each term multiplied on the host by its [256, 256] weight matrix as soon as it exists, the
  products added left to right and the bias last. Every operation writes a buffer of its own, so every weakly fair
  execution ends with each buffer at the composed term of the operations above it; the result's term is stated through
  the shared sparse stage, and the arguments are never written.
-/
import proofs.«101831_j74045236183289_1_alg».proof.Proof.Gen.ReferenceIdeal
import proofs.«101831_j74045236183289_1_alg».proof.Proof.Sparse
import Idealize.ShloMosaic.Lib.StableHlo.Run

set_option maxRecDepth 16384

noncomputable section

namespace Cert.ReferenceIdeal.Hand

open Cert.ReferenceIdeal Cert.ReferenceIdeal.Gen Cert.Sparse
open Idealize.ShloMosaic Idealize.ShloMosaic.TcCoe Idealize.SL.Sem Idealize.ShloMosaic.StableHlo

variable {F : FTy → Type} [FloatOps F]

/-- @main's first 49 operations: the index arrays and the Laplacian's edge values (a called function's operations stand
    in its call's place). -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v3 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x0DA24260#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    unary main_v23 main_v24 (Host.negf : (⟨S850000, .f32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)),
    binary main_v3 main_v6 main_v33 (cmpi .eq : (⟨S850000, .i32⟩ : BufTy).Contents (Elt F) → (⟨S850000, .i32⟩ : BufTy).Contents (Elt F) → (⟨S850000, .i1⟩ : BufTy).Contents (Elt F)),
    nullary main_cst_7 (constant S_ .f32 0x3F800000#32),
    unary main_cst_7 main_v34 (broadcastInDim S850000 ![] bcast_S_S850000 : (⟨S_, .f32⟩ : BufTy).Contents (Elt F) → (⟨S850000, .f32⟩ : BufTy).Contents (Elt F)),
    binary main_v32 main_v34 main_v35 (addf : (⟨S850000, .f32⟩ : BufTy).Contents (Elt F) → (⟨S850000, .f32⟩ : BufTy).Contents (Elt F) → (⟨S850000, .f32⟩ : BufTy).Contents (Elt F)),
    TRef.ternary (TRef.of (T := ⟨S850000, .i1⟩) main_v33) (TRef.of (T := ⟨S850000, .f32⟩) main_v35) (TRef.of (T := ⟨S850000, .f32⟩) main_v32) (TRef.of (T := ⟨S850000, .f32⟩) main_v36) select ]

/-- Its other 74: the recurrence, the four products, their sum and the bias. -/
abbrev opsB : List (HloOp τ sig (Elt F)) :=
  [ unary main_arg2 main_v37 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v37 main_v38 rfl shapeCasts_S1x256x256_S256x256,
    binary main_arg0 main_v38 main_v39 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v36 main_v40 (broadcastInDim S850000x1 ![0] bcast_S850000_S850000x1_0 : (⟨S850000, .f32⟩ : BufTy).Contents (Elt F) → (⟨S850000x1, .f32⟩ : BufTy).Contents (Elt F)),
    nullary main_c_8 (constantI S_ 32 0#32),
    unary main_c_8 main_v41 (broadcastInDim S850000 ![] bcast_S_S850000 : (⟨S_, .i32⟩ : BufTy).Contents (Elt F) → (⟨S850000, .i32⟩ : BufTy).Contents (Elt F)),
    binary main_v6 main_v41 main_v42 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v43 (broadcastInDim S850000 ![] bcast_S_S850000 : (⟨S_, .i32⟩ : BufTy).Contents (Elt F) → (⟨S850000, .i32⟩ : BufTy).Contents (Elt F)),
    binary main_v6 main_v43 main_v44 (addi : (⟨S850000, .i32⟩ : BufTy).Contents (Elt F) → (⟨S850000, .i32⟩ : BufTy).Contents (Elt F) → (⟨S850000, .i32⟩ : BufTy).Contents (Elt F)),
    ternary main_v42 main_v44 main_v6 main_v45 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v45 main_v46 (broadcastInDim S850000x1 ![0] bcast_S850000_S850000x1_0 : (⟨S850000, .i32⟩ : BufTy).Contents (Elt F) → (⟨S850000x1, .i32⟩ : BufTy).Contents (Elt F)),
    binary main_arg0 main_v46 main_v47 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v40 main_v48 (broadcastInDim S850000x256 ![0, 1] bcast_S850000x1_S850000x256_0_1 : (⟨S850000x1, .f32⟩ : BufTy).Contents (Elt F) → (⟨S850000x256, .f32⟩ : BufTy).Contents (Elt F)),
    binary main_v48 main_v47 main_v49 (mulf : (⟨S850000x256, .f32⟩ : BufTy).Contents (Elt F) → (⟨S850000x256, .f32⟩ : BufTy).Contents (Elt F) → (⟨S850000x256, .f32⟩ : BufTy).Contents (Elt F)),
    nullary main_cst_10 (constant S_ .f32 0x00000000#32),
    unary main_cst_10 main_v50 (broadcastInDim S50000x256 ![] bcast_S_S50000x256 : (⟨S_, .f32⟩ : BufTy).Contents (Elt F) → (⟨S50000x256, .f32⟩ : BufTy).Contents (Elt F)),
    unary main_v3 main_v51 (broadcastInDim S850000x1 ![0] bcast_S850000_S850000x1_0 : (⟨S850000, .i32⟩ : BufTy).Contents (Elt F) → (⟨S850000x1, .i32⟩ : BufTy).Contents (Elt F)),
    ternary main_v50 main_v51 main_v49 main_v52 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg2 main_v53 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v53 main_v54 rfl shapeCasts_S1x256x256_S256x256,
    binary main_v52 main_v54 main_v55 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v39 main_v55 main_v56 (addf : (⟨S50000x256, .f32⟩ : BufTy).Contents (Elt F) → (⟨S50000x256, .f32⟩ : BufTy).Contents (Elt F) → (⟨S50000x256, .f32⟩ : BufTy).Contents (Elt F)),
    unary main_v36 main_v57 (broadcastInDim S850000x1 ![0] bcast_S850000_S850000x1_0 : (⟨S850000, .f32⟩ : BufTy).Contents (Elt F) → (⟨S850000x1, .f32⟩ : BufTy).Contents (Elt F)),
    nullary main_c_11 (constantI S_ 32 0#32),
    unary main_c_11 main_v58 (broadcastInDim S850000 ![] bcast_S_S850000 : (⟨S_, .i32⟩ : BufTy).Contents (Elt F) → (⟨S850000, .i32⟩ : BufTy).Contents (Elt F)),
    binary main_v6 main_v58 main_v59 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v60 (broadcastInDim S850000 ![] bcast_S_S850000 : (⟨S_, .i32⟩ : BufTy).Contents (Elt F) → (⟨S850000, .i32⟩ : BufTy).Contents (Elt F)),
    binary main_v6 main_v60 main_v61 (addi : (⟨S850000, .i32⟩ : BufTy).Contents (Elt F) → (⟨S850000, .i32⟩ : BufTy).Contents (Elt F) → (⟨S850000, .i32⟩ : BufTy).Contents (Elt F)),
    ternary main_v59 main_v61 main_v6 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v62 main_v63 (broadcastInDim S850000x1 ![0] bcast_S850000_S850000x1_0 : (⟨S850000, .i32⟩ : BufTy).Contents (Elt F) → (⟨S850000x1, .i32⟩ : BufTy).Contents (Elt F)),
    binary main_v52 main_v63 main_v64 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v57 main_v65 (broadcastInDim S850000x256 ![0, 1] bcast_S850000x1_S850000x256_0_1 : (⟨S850000x1, .f32⟩ : BufTy).Contents (Elt F) → (⟨S850000x256, .f32⟩ : BufTy).Contents (Elt F)),
    binary main_v65 main_v64 main_v66 (mulf : (⟨S850000x256, .f32⟩ : BufTy).Contents (Elt F) → (⟨S850000x256, .f32⟩ : BufTy).Contents (Elt F) → (⟨S850000x256, .f32⟩ : BufTy).Contents (Elt F)),
    nullary main_cst_13 (constant S_ .f32 0x00000000#32),
    unary main_cst_13 main_v67 (broadcastInDim S50000x256 ![] bcast_S_S50000x256 : (⟨S_, .f32⟩ : BufTy).Contents (Elt F) → (⟨S50000x256, .f32⟩ : BufTy).Contents (Elt F)),
    unary main_v3 main_v68 (broadcastInDim S850000x1 ![0] bcast_S850000_S850000x1_0 : (⟨S850000, .i32⟩ : BufTy).Contents (Elt F) → (⟨S850000x1, .i32⟩ : BufTy).Contents (Elt F)),
    ternary main_v67 main_v68 main_v66 main_v69 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    nullary main_cst_14 (constant S_ .f32 0x40000000#32),
    unary main_cst_14 main_v70 (broadcastInDim S50000x256 ![] bcast_S_S50000x256 : (⟨S_, .f32⟩ : BufTy).Contents (Elt F) → (⟨S50000x256, .f32⟩ : BufTy).Contents (Elt F)),
    binary main_v70 main_v69 main_v71 (mulf : (⟨S50000x256, .f32⟩ : BufTy).Contents (Elt F) → (⟨S50000x256, .f32⟩ : BufTy).Contents (Elt F) → (⟨S50000x256, .f32⟩ : BufTy).Contents (Elt F)),
    binary main_v71 main_arg0 main_v72 (subf : (⟨S50000x256, .f32⟩ : BufTy).Contents (Elt F) → (⟨S50000x256, .f32⟩ : BufTy).Contents (Elt F) → (⟨S50000x256, .f32⟩ : BufTy).Contents (Elt F)),
    unary main_arg2 main_v73 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v73 main_v74 rfl shapeCasts_S1x256x256_S256x256,
    binary main_v72 main_v74 main_v75 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v56 main_v75 main_v76 (addf : (⟨S50000x256, .f32⟩ : BufTy).Contents (Elt F) → (⟨S50000x256, .f32⟩ : BufTy).Contents (Elt F) → (⟨S50000x256, .f32⟩ : BufTy).Contents (Elt F)),
    unary main_v36 main_v77 (broadcastInDim S850000x1 ![0] bcast_S850000_S850000x1_0 : (⟨S850000, .f32⟩ : BufTy).Contents (Elt F) → (⟨S850000x1, .f32⟩ : BufTy).Contents (Elt F)),
    nullary main_c_15 (constantI S_ 32 0#32),
    unary main_c_15 main_v78 (broadcastInDim S850000 ![] bcast_S_S850000 : (⟨S_, .i32⟩ : BufTy).Contents (Elt F) → (⟨S850000, .i32⟩ : BufTy).Contents (Elt F)),
    binary main_v6 main_v78 main_v79 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v80 (broadcastInDim S850000 ![] bcast_S_S850000 : (⟨S_, .i32⟩ : BufTy).Contents (Elt F) → (⟨S850000, .i32⟩ : BufTy).Contents (Elt F)),
    binary main_v6 main_v80 main_v81 (addi : (⟨S850000, .i32⟩ : BufTy).Contents (Elt F) → (⟨S850000, .i32⟩ : BufTy).Contents (Elt F) → (⟨S850000, .i32⟩ : BufTy).Contents (Elt F)),
    ternary main_v79 main_v81 main_v6 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v82 main_v83 (broadcastInDim S850000x1 ![0] bcast_S850000_S850000x1_0 : (⟨S850000, .i32⟩ : BufTy).Contents (Elt F) → (⟨S850000x1, .i32⟩ : BufTy).Contents (Elt F)),
    binary main_v72 main_v83 main_v84 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v77 main_v85 (broadcastInDim S850000x256 ![0, 1] bcast_S850000x1_S850000x256_0_1 : (⟨S850000x1, .f32⟩ : BufTy).Contents (Elt F) → (⟨S850000x256, .f32⟩ : BufTy).Contents (Elt F)),
    binary main_v85 main_v84 main_v86 (mulf : (⟨S850000x256, .f32⟩ : BufTy).Contents (Elt F) → (⟨S850000x256, .f32⟩ : BufTy).Contents (Elt F) → (⟨S850000x256, .f32⟩ : BufTy).Contents (Elt F)),
    nullary main_cst_17 (constant S_ .f32 0x00000000#32),
    unary main_cst_17 main_v87 (broadcastInDim S50000x256 ![] bcast_S_S50000x256 : (⟨S_, .f32⟩ : BufTy).Contents (Elt F) → (⟨S50000x256, .f32⟩ : BufTy).Contents (Elt F)),
    unary main_v3 main_v88 (broadcastInDim S850000x1 ![0] bcast_S850000_S850000x1_0 : (⟨S850000, .i32⟩ : BufTy).Contents (Elt F) → (⟨S850000x1, .i32⟩ : BufTy).Contents (Elt F)),
    ternary main_v87 main_v88 main_v86 main_v89 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    nullary main_cst_18 (constant S_ .f32 0x40000000#32),
    unary main_cst_18 main_v90 (broadcastInDim S50000x256 ![] bcast_S_S50000x256 : (⟨S_, .f32⟩ : BufTy).Contents (Elt F) → (⟨S50000x256, .f32⟩ : BufTy).Contents (Elt F)),
    binary main_v90 main_v89 main_v91 (mulf : (⟨S50000x256, .f32⟩ : BufTy).Contents (Elt F) → (⟨S50000x256, .f32⟩ : BufTy).Contents (Elt F) → (⟨S50000x256, .f32⟩ : BufTy).Contents (Elt F)),
    binary main_v91 main_v52 main_v92 (subf : (⟨S50000x256, .f32⟩ : BufTy).Contents (Elt F) → (⟨S50000x256, .f32⟩ : BufTy).Contents (Elt F) → (⟨S50000x256, .f32⟩ : BufTy).Contents (Elt F)),
    unary main_arg2 main_v93 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v93 main_v94 rfl shapeCasts_S1x256x256_S256x256,
    binary main_v92 main_v94 main_v95 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v76 main_v95 main_v96 (addf : (⟨S50000x256, .f32⟩ : BufTy).Contents (Elt F) → (⟨S50000x256, .f32⟩ : BufTy).Contents (Elt F) → (⟨S50000x256, .f32⟩ : BufTy).Contents (Elt F)),
    unary main_arg3 main_v97 (broadcastInDim S1x256 ![1] bcast_S256_S1x256_1 : (⟨S256, .f32⟩ : BufTy).Contents (Elt F) → (⟨S1x256, .f32⟩ : BufTy).Contents (Elt F)),
    unary main_v97 main_v98 (broadcastInDim S50000x256 ![0, 1] bcast_S1x256_S50000x256_0_1 : (⟨S1x256, .f32⟩ : BufTy).Contents (Elt F) → (⟨S50000x256, .f32⟩ : BufTy).Contents (Elt F)),
    binary main_v96 main_v98 main_v99 (addf : (⟨S50000x256, .f32⟩ : BufTy).Contents (Elt F) → (⟨S50000x256, .f32⟩ : BufTy).Contents (Elt F) → (⟨S50000x256, .f32⟩ : BufTy).Contents (Elt F)) ]

abbrev ops : List (HloOp τ sig (Elt F)) := opsA ++ opsB

set_option maxRecDepth 65536 in
set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., ternary_bufs_sub ..⟩
theorem opsB_sub : (opsB : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem ops_fresh (op : HloOp τ sig (Elt F)) (h : op ∈ (ops : List (HloOp τ sig (Elt F)))) : op.fresh = ∅ :=
  (List.mem_append.mp h).elim (List.forall_iff_forall_mem.mp opsA_fresh op) (List.forall_iff_forall_mem.mp opsB_fresh op)

/-- Every weakly fair execution terminates with every buffer at what the operations, in order, leave in it. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-! ## The sparse prefix -/

set_option maxHeartbeats 4000000 in
theorem pre_row (V0 : Valuation τ sig (Elt F)) :
    after (opsA (F := F)) V0 (Proc.devRef .tc main_v3) = rowIdx (V0 (Proc.devRef .tc main_arg1)) := by
  simp only [opsA]
  after_results_simp
  rfl

set_option maxHeartbeats 4000000 in
theorem pre_col (V0 : Valuation τ sig (Elt F)) :
    after (opsA (F := F)) V0 (Proc.devRef .tc main_v6) = colIdx (V0 (Proc.devRef .tc main_arg1)) := by
  simp only [opsA]
  after_results_simp
  rfl

set_option maxHeartbeats 16000000 in
theorem pre_lap (V0 : Valuation τ sig (Elt F)) :
    after (opsA (F := F)) V0 (Proc.devRef .tc main_v36)
      = lapVals (rowIdx (V0 (Proc.devRef .tc main_arg1))) (colIdx (V0 (Proc.devRef .tc main_arg1))) := by
  simp only [opsA]
  after_results_simp
  rfl

/-- No operation writes an argument array. -/
theorem pre_arg (V0 : Valuation τ sig (Elt F)) (r : Ref sig .tc) (hr : r = main_arg0 ∨ r = main_arg1 ∨ r = main_arg2 ∨ r = main_arg3) :
    after (opsA (F := F)) V0 (Proc.devRef .tc r) = V0 (Proc.devRef .tc r) :=
  StableHlo.after_of_forall_not_mem (b := Proc.devRef .tc r) _ _ (List.forall_iff_forall_mem.mp (by
    simp only [opsA, List.Forall, StableHlo.nullary_writes, StableHlo.unary_writes, StableHlo.binary_writes, StableHlo.ternary_writes,
      StableHlo.reshape_writes, Finset.mem_singleton]
    rcases hr with rfl | rfl | rfl | rfl
    all_goals (repeat' apply And.intro)
    all_goals exact StableHlo.devRef_ne_of_ne (by decide)))

theorem tail_arg (W : Valuation τ sig (Elt F)) (r : Ref sig .tc) (hr : r = main_arg0 ∨ r = main_arg1 ∨ r = main_arg2 ∨ r = main_arg3) :
    after (opsB (F := F)) W (Proc.devRef .tc r) = W (Proc.devRef .tc r) :=
  StableHlo.after_of_forall_not_mem (b := Proc.devRef .tc r) _ _ (List.forall_iff_forall_mem.mp (by
    simp only [opsB, List.Forall, StableHlo.nullary_writes, StableHlo.unary_writes, StableHlo.binary_writes, StableHlo.ternary_writes,
      StableHlo.reshape_writes, Finset.mem_singleton]
    rcases hr with rfl | rfl | rfl | rfl
    all_goals (repeat' apply And.intro)
    all_goals exact StableHlo.devRef_ne_of_ne (by decide)))

/-! ## The dense tail -/

/-- Weight matrix `j` of the [4, 256, 256] weights. -/
def wMat0 (w : FArr F S4x256x256) : FArr F S256x256 :=
  shapeCast S256x256 (extractStridedSlice S1x256x256 ![0, 0, 0] w slices_S4x256x256_S1x256x256_0_0_0) shapeCasts_S1x256x256_S256x256
def wMat1 (w : FArr F S4x256x256) : FArr F S256x256 :=
  shapeCast S256x256 (extractStridedSlice S1x256x256 ![1, 0, 0] w slices_S4x256x256_S1x256x256_1_0_0) shapeCasts_S1x256x256_S256x256
def wMat2 (w : FArr F S4x256x256) : FArr F S256x256 :=
  shapeCast S256x256 (extractStridedSlice S1x256x256 ![2, 0, 0] w slices_S4x256x256_S1x256x256_2_0_0) shapeCasts_S1x256x256_S256x256
def wMat3 (w : FArr F S4x256x256) : FArr F S256x256 :=
  shapeCast S256x256 (extractStridedSlice S1x256x256 ![3, 0, 0] w slices_S4x256x256_S1x256x256_3_0_0) shapeCasts_S1x256x256_S256x256

/-- A [50000, 256] array times a [256, 256] matrix, on the host. -/
def hdot (a : FArr F S50000x256) (b : FArr F S256x256) : FArr F S50000x256 :=
  Host.dotGeneral dot_S50000x256_S256x256_S50000x256_1_0_0_1_n_n none a b

/-- The bias as every row of a [50000, 256] array. -/
def biasRows (b : FArr F S256) : FArr F S50000x256 :=
  broadcastInDim S50000x256 ![0, 1] bcast_S1x256_S50000x256_0_1 (broadcastInDim S1x256 ![1] bcast_S256_S1x256_1 b)

/-- The four products, added left to right, and the bias. -/
def dense (t0 t1 t2 t3 : FArr F S50000x256) (w : FArr F S4x256x256) (b : FArr F S256) : FArr F S50000x256 :=
  addf (addf (addf (addf (hdot t0 (wMat0 w)) (hdot t1 (wMat1 w))) (hdot t2 (wMat2 w))) (hdot t3 (wMat3 w))) (biasRows b)

set_option maxHeartbeats 32000000 in
/-- From any contents `W` of the buffers above it, the tail leaves in the result's buffer the dense sum of the four
    Chebyshev terms of `W`'s feature array along `W`'s index arrays and edge values. -/
theorem tail_val (W : Valuation τ sig (Elt F)) :
    after (opsB (F := F)) W (Proc.devRef .tc main_v99)
      = dense (W (Proc.devRef .tc main_arg0))
          (T1 (W (Proc.devRef .tc main_v36)) (W (Proc.devRef .tc main_v3)) (W (Proc.devRef .tc main_v6)) (W (Proc.devRef .tc main_arg0)))
          (T2 (W (Proc.devRef .tc main_v36)) (W (Proc.devRef .tc main_v3)) (W (Proc.devRef .tc main_v6)) (W (Proc.devRef .tc main_arg0)))
          (T3 (W (Proc.devRef .tc main_v36)) (W (Proc.devRef .tc main_v3)) (W (Proc.devRef .tc main_v6)) (W (Proc.devRef .tc main_arg0)))
          (W (Proc.devRef .tc main_arg2)) (W (Proc.devRef .tc main_arg3)) := by
  simp only [opsB]
  after_results_simp
  rfl

/-! ## The run -/

/-- The reference's result as a function of its four arguments. -/
def refVal (x : FArr F S50000x256) (e : IArr F S2x800000) (w : FArr F S4x256x256) (b : FArr F S256) : FArr F S50000x256 :=
  dense x
    (T1 (lapVals (rowIdx e) (colIdx e)) (rowIdx e) (colIdx e) x)
    (T2 (lapVals (rowIdx e) (colIdx e)) (rowIdx e) (colIdx e) x)
    (T3 (lapVals (rowIdx e) (colIdx e)) (rowIdx e) (colIdx e) x) w b

theorem val_eq (V0 : Valuation τ sig (Elt F)) :
    after (ops (F := F)) V0 (Proc.devRef .tc main_v99)
      = refVal (V0 (Proc.devRef .tc main_arg0)) (V0 (Proc.devRef .tc main_arg1)) (V0 (Proc.devRef .tc main_arg2)) (V0 (Proc.devRef .tc main_arg3)) := by
  show after (opsA ++ opsB) V0 _ = _
  rw [after_append, tail_val, pre_lap, pre_row, pre_col, pre_arg V0 main_arg0 (.inl rfl), pre_arg V0 main_arg2 (.inr (.inr (.inl rfl))),
    pre_arg V0 main_arg3 (.inr (.inr (.inr rfl)))]
  rfl

theorem arg_eq (V0 : Valuation τ sig (Elt F)) (r : Ref sig .tc) (hr : r = main_arg0 ∨ r = main_arg1 ∨ r = main_arg2 ∨ r = main_arg3) :
    after (ops (F := F)) V0 (Proc.devRef .tc r) = V0 (Proc.devRef .tc r) := by
  show after (opsA ++ opsB) V0 _ = _
  rw [after_append, tail_arg _ r hr, pre_arg V0 r hr]

/-- Every weakly fair execution of the reference terminates with its result at `refVal` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99)
        = refVal (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v99).trans (val_eq _),
      (h c main_arg0).trans (arg_eq _ _ (.inl rfl)),
      (h c main_arg1).trans (arg_eq _ _ (.inr (.inl rfl))),
      (h c main_arg2).trans (arg_eq _ _ (.inr (.inr (.inl rfl)))),
      (h c main_arg3).trans (arg_eq _ _ (.inr (.inr (.inr rfl))))⟩)
    (run_all m ρ)

end Cert.ReferenceIdeal.Hand

end
-- ==== Proof.StackAt.lean ====
/-
  The stacked Chebyshev terms at an index: piece `j` of the stack along the leading axis is the `j`-th term, each term
  lifted to a [1, 50000, 256] array read at its own row and column, and narrowing to bf16 changes nothing on the
  extended reals.
-/
import proofs.«101831_j74045236183289_1_alg».proof.Proof.Sparse
import Idealize.ShloMosaic.Lib.ValueIdx
import Idealize.ShloMosaic.Lib.Pipeline.Value

noncomputable section

namespace Cert.Sparse

open Cert.KernelIdeal Cert.KernelIdeal.Gen
open Idealize.ShloMosaic Idealize.ShloMosaic.ValueIdx

/-- A lifted array at row `r`, column `k` of its one slab. -/
theorem lift3_apply (a : FArr Ideal S50000x256) (r : Fin 50000) (k : Fin 256) :
    lift3 (F := Ideal) a (ix3 (0 : Fin 1) r k) = a (ix2 r k) := by
  unfold lift3
  exact broadcastInDim_apply ![1, 2] bcast_S50000x256_S1x50000x256_1_2 a (ix3 (0 : Fin 1) r k) (ix2 r k) (fun d => match d with
    | ⟨0, _⟩ => by show r.val = if (50000 : Nat) = 1 then 0 else r.val; rw [if_neg (by decide)]
    | ⟨1, _⟩ => by show k.val = if (256 : Nat) = 1 then 0 else k.val; rw [if_neg (by decide)])

section Pieces
variable (a0 a1 a2 a3 : FArr Ideal S1x50000x256) (r : Fin 50000) (k : Fin 256)

theorem stack4_apply0 : stack4 (F := Ideal) a0 a1 a2 a3 (ix3 (0 : Fin 4) r k) = a0 (ix3 (0 : Fin 1) r k) := by
  unfold stack4
  exact concatenate_apply_piece (0 : Fin S4x50000x256.rank) _ _ (ix3 (0 : Fin 4) r k) 0 (by show (0 : Nat) < 4; omega) S1x50000x256 a0 rfl rfl 0 rfl
    (ix3 (0 : Fin 1) r k) (fun b hb => match b with | ⟨0, _⟩ => absurd rfl hb | ⟨1, _⟩ => rfl | ⟨2, _⟩ => rfl) rfl

theorem stack4_apply1 : stack4 (F := Ideal) a0 a1 a2 a3 (ix3 (1 : Fin 4) r k) = a1 (ix3 (0 : Fin 1) r k) := by
  unfold stack4
  exact concatenate_apply_piece (0 : Fin S4x50000x256.rank) _ _ (ix3 (1 : Fin 4) r k) 1 (by show (1 : Nat) < 4; omega) S1x50000x256 a1 rfl rfl 1 rfl
    (ix3 (0 : Fin 1) r k) (fun b hb => match b with | ⟨0, _⟩ => absurd rfl hb | ⟨1, _⟩ => rfl | ⟨2, _⟩ => rfl) rfl

theorem stack4_apply2 : stack4 (F := Ideal) a0 a1 a2 a3 (ix3 (2 : Fin 4) r k) = a2 (ix3 (0 : Fin 1) r k) := by
  unfold stack4
  exact concatenate_apply_piece (0 : Fin S4x50000x256.rank) _ _ (ix3 (2 : Fin 4) r k) 2 (by show (2 : Nat) < 4; omega) S1x50000x256 a2 rfl rfl 2 rfl
    (ix3 (0 : Fin 1) r k) (fun b hb => match b with | ⟨0, _⟩ => absurd rfl hb | ⟨1, _⟩ => rfl | ⟨2, _⟩ => rfl) rfl

theorem stack4_apply3 : stack4 (F := Ideal) a0 a1 a2 a3 (ix3 (3 : Fin 4) r k) = a3 (ix3 (0 : Fin 1) r k) := by
  unfold stack4
  exact concatenate_apply_piece (0 : Fin S4x50000x256.rank) _ _ (ix3 (3 : Fin 4) r k) 3 (by show (3 : Nat) < 4; omega) S1x50000x256 a3 rfl rfl 3 rfl
    (ix3 (0 : Fin 1) r k) (fun b hb => match b with | ⟨0, _⟩ => absurd rfl hb | ⟨1, _⟩ => rfl | ⟨2, _⟩ => rfl) rfl

end Pieces

section Terms
variable (l : FArr Ideal S850000) (rw cl : IArr Ideal S850000) (x : FArr Ideal S50000x256) (r : Fin 50000) (k : Fin 256)

/-- The narrowed stack at slab `j`, row `r`, column `k`: the `j`-th Chebyshev term there. -/
theorem chebStack_apply0 : truncf (F := Ideal) .bf16 (chebStack (F := Ideal) l rw cl x) bitsLt_bf16_f32 (ix3 (0 : Fin 4) r k) = x (ix2 r k) := by
  show chebStack (F := Ideal) l rw cl x (ix3 (0 : Fin 4) r k) = _
  unfold chebStack; rw [stack4_apply0, lift3_apply]
theorem chebStack_apply1 : truncf (F := Ideal) .bf16 (chebStack (F := Ideal) l rw cl x) bitsLt_bf16_f32 (ix3 (1 : Fin 4) r k) = T1 l rw cl x (ix2 r k) := by
  show chebStack (F := Ideal) l rw cl x (ix3 (1 : Fin 4) r k) = _
  unfold chebStack; rw [stack4_apply1, lift3_apply]
theorem chebStack_apply2 : truncf (F := Ideal) .bf16 (chebStack (F := Ideal) l rw cl x) bitsLt_bf16_f32 (ix3 (2 : Fin 4) r k) = T2 l rw cl x (ix2 r k) := by
  show chebStack (F := Ideal) l rw cl x (ix3 (2 : Fin 4) r k) = _
  unfold chebStack; rw [stack4_apply2, lift3_apply]
theorem chebStack_apply3 : truncf (F := Ideal) .bf16 (chebStack (F := Ideal) l rw cl x) bitsLt_bf16_f32 (ix3 (3 : Fin 4) r k) = T3 l rw cl x (ix2 r k) := by
  show chebStack (F := Ideal) l rw cl x (ix3 (3 : Fin 4) r k) = _
  unfold chebStack; rw [stack4_apply3, lift3_apply]

end Terms

end Cert.Sparse

end
-- ==== Proof.RefDense.lean ====
/-
  The reference's dense tail at an index. On the extended reals the host's `dot_general` of a [50000, 256] array with a
  [256, 256] matrix is, at row `r` and column `q`, the sum over the 256 contracted indices of the products; weight matrix `j`
  (a slice of the [4, 256, 256] weights with its unit axis dropped) at row `k`, column `q` is the weights at (j, k, q); the
  bias broadcast over the rows is the bias at the column. So the tail at (r, q) is the four sums, added left to right,
  plus the bias.
-/
import proofs.«101831_j74045236183289_1_alg».proof.Proof.RefRun
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.Sparse
open Idealize.ShloMosaic Idealize.ShloMosaic.TcCoe Idealize.SL.Sem Idealize.ShloMosaic.ValueIdx
open scoped BigOperators

/-- The host's product: [50000, 256] × [256, 256], contracting the left's columns with the right's rows. -/
abbrev DR := dot_S50000x256_S256x256_S50000x256_1_0_0_1_n_n

theorem lhs0 (i : S50000x256.Idx) (q : DR.contr.Idx) : (DR.lhsIdx i q 0).val = (i 0).val := by
  unfold DotDims.lhsIdx
  rw [dif_neg (show ¬(0 : Fin S50000x256.rank) ∈ DR.lhsBatch by decide), dif_pos (show (0 : Fin S50000x256.rank) ∈ DR.lhsNonContracting by decide)]
  rfl
theorem lhs1 (i : S50000x256.Idx) (q : DR.contr.Idx) : (DR.lhsIdx i q 1).val = (q ⟨0, by decide⟩).val :=
  DR.lhsIdx_val_of_single rfl i q
theorem rhs0 (i : S50000x256.Idx) (q : DR.contr.Idx) : (DR.rhsIdx i q 0).val = (q ⟨0, by decide⟩).val :=
  DR.rhsIdx_val_of_single rfl i q
theorem rhs1 (i : S50000x256.Idx) (q : DR.contr.Idx) : (DR.rhsIdx i q 1).val = (i 1).val := by
  unfold DotDims.rhsIdx
  rw [dif_neg (show ¬(1 : Fin S256x256.rank) ∈ DR.rhsBatch by decide), dif_pos (show (1 : Fin S256x256.rank) ∈ DR.rhsNonContracting by decide)]
  rfl

theorem hdot_apply (a : FArr Ideal S50000x256) (b : FArr Ideal S256x256) (r : Fin 50000) (q : Fin 256) :
    hdot (F := Ideal) a b (ix2 r q) = ∑ k : Fin 256, a (ix2 r k) * b (ix2 k q) := by
  unfold hdot
  simp only [Host.dotGeneral]
  rw [Ideal.dotGeneral_apply, ← Equiv.sum_comp (ValueIdx.contrEquiv1 DR 256 rfl rfl).symm]
  refine Finset.sum_congr rfl fun k _ => ?_
  have hk := ValueIdx.contrEquiv1_symm_val DR 256 rfl rfl k
  have el : DR.lhsIdx (ix2 r q) ((ValueIdx.contrEquiv1 DR 256 rfl rfl).symm k) = ix2 r k := funext fun a => Fin.ext (by
    match a with
    | ⟨0, _⟩ => exact lhs0 _ _
    | ⟨1, _⟩ => exact (lhs1 _ _).trans hk)
  have er : DR.rhsIdx (ix2 r q) ((ValueIdx.contrEquiv1 DR 256 rfl rfl).symm k) = ix2 k q := funext fun a => Fin.ext (by
    match a with
    | ⟨0, _⟩ => exact (rhs0 _ _).trans hk
    | ⟨1, _⟩ => exact rhs1 _ _)
  rw [el, er]

section Weights
variable (w : FArr Ideal S4x256x256) (k q : Fin 256)

theorem wMat0_apply : wMat0 (F := Ideal) w (ix2 k q) = w (ix3 (0 : Fin 4) k q) := by
  unfold wMat0
  refine (shapeCast_dropUnit_apply ![256, 256] _ shapeCasts_S1x256x256_S256x256 (ix2 k q)).trans ?_
  exact extractStridedSlice_apply ![0, 0, 0] w slices_S4x256x256_S1x256x256_0_0_0 _ (ix3 (0 : Fin 4) k q) (fun a => match a with
    | ⟨0, _⟩ => by show 0 = 0 + 0; rfl
    | ⟨1, _⟩ => by show k.val = 0 + k.val; omega
    | ⟨2, _⟩ => by show q.val = 0 + q.val; omega)
theorem wMat1_apply : wMat1 (F := Ideal) w (ix2 k q) = w (ix3 (1 : Fin 4) k q) := by
  unfold wMat1
  refine (shapeCast_dropUnit_apply ![256, 256] _ shapeCasts_S1x256x256_S256x256 (ix2 k q)).trans ?_
  exact extractStridedSlice_apply ![1, 0, 0] w slices_S4x256x256_S1x256x256_1_0_0 _ (ix3 (1 : Fin 4) k q) (fun a => match a with
    | ⟨0, _⟩ => by show 1 = 1 + 0; rfl
    | ⟨1, _⟩ => by show k.val = 0 + k.val; omega
    | ⟨2, _⟩ => by show q.val = 0 + q.val; omega)
theorem wMat2_apply : wMat2 (F := Ideal) w (ix2 k q) = w (ix3 (2 : Fin 4) k q) := by
  unfold wMat2
  refine (shapeCast_dropUnit_apply ![256, 256] _ shapeCasts_S1x256x256_S256x256 (ix2 k q)).trans ?_
  exact extractStridedSlice_apply ![2, 0, 0] w slices_S4x256x256_S1x256x256_2_0_0 _ (ix3 (2 : Fin 4) k q) (fun a => match a with
    | ⟨0, _⟩ => by show 2 = 2 + 0; rfl
    | ⟨1, _⟩ => by show k.val = 0 + k.val; omega
    | ⟨2, _⟩ => by show q.val = 0 + q.val; omega)
theorem wMat3_apply : wMat3 (F := Ideal) w (ix2 k q) = w (ix3 (3 : Fin 4) k q) := by
  unfold wMat3
  refine (shapeCast_dropUnit_apply ![256, 256] _ shapeCasts_S1x256x256_S256x256 (ix2 k q)).trans ?_
  exact extractStridedSlice_apply ![3, 0, 0] w slices_S4x256x256_S1x256x256_3_0_0 _ (ix3 (3 : Fin 4) k q) (fun a => match a with
    | ⟨0, _⟩ => by show 3 = 3 + 0; rfl
    | ⟨1, _⟩ => by show k.val = 0 + k.val; omega
    | ⟨2, _⟩ => by show q.val = 0 + q.val; omega)

end Weights

theorem biasRows_apply (b : FArr Ideal S256) (r : Fin 50000) (q : Fin 256) : biasRows (F := Ideal) b (ix2 r q) = b (ix1 q) := by
  unfold biasRows
  refine (broadcastInDim_apply ![0, 1] bcast_S1x256_S50000x256_0_1 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans ?_
  exact broadcastInDim_apply ![1] bcast_S256_S1x256_1 b (ix2 (0 : Fin 1) q) (ix1 q) (fun a => match a with
    | ⟨0, _⟩ => by show q.val = if (256 : Nat) = 1 then 0 else q.val; rw [if_neg (by decide)])

/-- The dense tail at row `r`, column `q`. -/
theorem dense_apply (t0 t1 t2 t3 : FArr Ideal S50000x256) (w : FArr Ideal S4x256x256) (b : FArr Ideal S256) (r : Fin 50000) (q : Fin 256) :
    dense (F := Ideal) t0 t1 t2 t3 w b (ix2 r q)
      = (∑ k : Fin 256, t0 (ix2 r k) * w (ix3 (0 : Fin 4) k q)) + (∑ k : Fin 256, t1 (ix2 r k) * w (ix3 (1 : Fin 4) k q))
        + (∑ k : Fin 256, t2 (ix2 r k) * w (ix3 (2 : Fin 4) k q)) + (∑ k : Fin 256, t3 (ix2 r k) * w (ix3 (3 : Fin 4) k q)) + b (ix1 q) := by
  unfold dense
  simp only [addf_apply]
  rw [hdot_apply, hdot_apply, hdot_apply, hdot_apply, biasRows_apply]
  simp only [wMat0_apply, wMat1_apply, wMat2_apply, wMat3_apply]

end Cert.ReferenceIdeal.Hand

end
-- ==== Proof.Bridge.lean ====
/-
  The two results are one function. Index by index on the extended reals, the kernel's result — the layer's weighted sum
  `Spec.cheby` of the narrowed Chebyshev stack, the narrowed weights and the bias — and the reference's — its dense tail
  of the same four Chebyshev terms — are both
      Σ_k x[r,k]·w[0,k,q] + Σ_k T1[r,k]·w[1,k,q] + Σ_k T2[r,k]·w[2,k,q] + Σ_k T3[r,k]·w[3,k,q] + b[q]:
  narrowing to bf16 is the identity there, slab `j` of the stack is the `j`-th term, and the kernel's leading zero
  accumulator has already been absorbed (0 + a = a). No property of the inputs is used.
-/
import proofs.«101831_j74045236183289_1_alg».proof.Proof.StackAt
import proofs.«101831_j74045236183289_1_alg».proof.Proof.RefDense
import proofs.«101831_j74045236183289_1_alg».proof.Proof.Spec

noncomputable section

namespace Cert.Bridge

open Cert.KernelIdeal Cert.KernelIdeal.Gen Cert.Sparse Cert.Spec
open Idealize.ShloMosaic Idealize.ShloMosaic.ValueIdx
open scoped BigOperators

theorem result_eq (x : FArr Ideal S50000x256) (e : IArr Ideal S2x800000) (w : FArr Ideal S4x256x256) (b : FArr Ideal S256) :
    cheby (truncf (F := Ideal) .bf16 (chebStack (lapVals (rowIdx e) (colIdx e)) (rowIdx e) (colIdx e) x) bitsLt_bf16_f32)
        (truncf (F := Ideal) .bf16 w bitsLt_bf16_f32) b
      = Cert.ReferenceIdeal.Hand.refVal (F := Ideal) x e w b := by
  funext i
  obtain ⟨r, q, rfl⟩ : ∃ (r : Fin 50000) (q : Fin 256), i = ix2 r q := ⟨i 0, i 1, eq_ix2 i⟩
  unfold Cert.ReferenceIdeal.Hand.refVal
  rw [Cert.ReferenceIdeal.Hand.dense_apply]
  unfold cheby dotTerm
  simp only [chebStack_apply0, chebStack_apply1, chebStack_apply2, chebStack_apply3]
  rfl

end Cert.Bridge

end
-- ==== Proof.lean ====
/-
  A Chebyshev graph-convolution layer: from node features x [50000, 256], an edge list [2, 800000], weights
  [4, 256, 256] and a bias [256], both programs form on the host the normalized Laplacian's edge values (self loops
  added) and the Chebyshev terms T0 = x, T1 = L·x, T2 = 2·L·T1 − T0, T3 = 2·L·T2 − T1 by gathers and scatter-adds, and
  return Σ_j T_j · W_j + b. The kernel program stacks the four terms, narrows them and the weights to bf16 and sums the
  four products per 2000-row tile in one pallas_call, starting from a zero accumulator; the reference multiplies each term
  by its weight matrix on the host and adds the products left to right.

  The claim: the word-level kernel program, its idealization and the idealized reference each run to the end without a
  fault and leave their arguments unchanged (the three frames); the idealization rewrote nothing (`preserves` is `True`);
  and on the extended reals the two idealized programs end with equal results. For the last: the sparse stage is the
  same text in both programs, read back as one set of terms; the kernel's result array is, tile by tile, the weighted
  sum `Spec.cheby` of what the region finds; narrowing to bf16 is the identity on the extended reals; a matrix product
  into a zero accumulator and the host's `dot_general` are the same sum of products; and 0 + a = a. No finiteness of the
  inputs is used.
-/
import proofs.«101831_j74045236183289_1_alg».proof.Defs
import proofs.«101831_j74045236183289_1_alg».proof.Proof.Gen.Kernel
import proofs.«101831_j74045236183289_1_alg».proof.Proof.Gen.KernelIdeal
import proofs.«101831_j74045236183289_1_alg».proof.Proof.Gen.ReferenceIdeal
import proofs.«101831_j74045236183289_1_alg».proof.Proof.Gen.Pre_finite_inputs
import proofs.«101831_j74045236183289_1_alg».proof.Proof.KernelFrame
import proofs.«101831_j74045236183289_1_alg».proof.Proof.KernelIdealFrame
import proofs.«101831_j74045236183289_1_alg».proof.Proof.KernelValue
import proofs.«101831_j74045236183289_1_alg».proof.Proof.KernelStack
import proofs.«101831_j74045236183289_1_alg».proof.Proof.RefRun
import proofs.«101831_j74045236183289_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories agreeing on the arguments both idealized programs run, and end with one result: the kernel's result
    array at the weighted sum of the narrowed stack the region finds, the reference's at its dense tail, which are one
    function of the arguments (`Bridge.result_eq`). -/
theorem algebraic : Cert.algebraic_KernelIdeal_ReferenceIdeal := by
  intro m ρ m' ρ' _ hagree
  refine ⟨fun c => Cert.Spec.cheby (Cert.KernelIdeal.Fr.V m c Cert.KernelIdeal.main_v87) (Cert.KernelIdeal.Fr.V m c Cert.KernelIdeal.main_v88)
    (Cert.KernelIdeal.Fr.V m c Cert.KernelIdeal.main_arg3), Cert.KernelIdeal.Val.run m ρ, ?_⟩
  refine (θ_run Cert.ReferenceIdeal.defs _ _).mono (fun _ h c => ⟨(h c).1.trans ?_, (h c).2⟩)
    (Cert.ReferenceIdeal.Hand.run (F := Ideal) m' ρ')
  show Cert.ReferenceIdeal.Hand.refVal (F := Ideal) _ _ _ _
    = Cert.Spec.cheby (Cert.KernelIdeal.Fr.V m c Cert.KernelIdeal.main_v87) (Cert.KernelIdeal.Fr.V m c Cert.KernelIdeal.main_v88)
        (Cert.KernelIdeal.Fr.V m c Cert.KernelIdeal.main_arg3)
  rw [(hagree c).1, (hagree c).2.1, (hagree c).2.2.1, (hagree c).2.2.2, Cert.KernelIdeal.Host.V_stack, Cert.KernelIdeal.Host.V_weight,
    Cert.KernelIdeal.Fr.V_main_arg3]
  exact (Cert.Bridge.result_eq _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
